-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S32x1024x14x14 : Shape := ⟨4, ![32, 1024, 14, 14]⟩
abbrev S1024x1024 : Shape := ⟨2, ![1024, 1024]⟩
abbrev S1024 : Shape := ⟨1, ![1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S32x1024x14x14 : S_.BroadcastsInDim S32x1024x14x14 (![] : Fin 0 → Fin S32x1024x14x14.rank)
  reducesTo_S32x1024x14x14_S_d0_1_2_3 : S32x1024x14x14.ReducesTo [0, 1, 2, 3] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024 .f32) (main_arg6 : FVec F S1024x1024 .f32) (main_arg7 : FVec F S1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_v33

def fn {F : FTy → Type} [FloatOps F] (main_arg0 : FVec F S32x1024x1024 .f32) (main_arg1 : FVec F S32x1024x1024 .f32) (main_arg2 : FVec F S32x1024x14x14 .f32) (main_arg3 : FVec F S1024x1024 .f32) (main_arg4 : FVec F S1024 .f32) (main_arg5 : FVec F S1024 .f32) (main_arg6 : FVec F S1024x1024 .f32) (main_arg7 : FVec F S1024 .f32) (main_arg8 : FVec F S1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S32x1024x14x14 .f32 := Host.absf main_arg2
  let main_cst_2 : FVec F S_ .f32 := constant S_ .f32 0x7F800000#32
  let main_v10 : FVec F S32x1024x14x14 .f32 := broadcastInDim S32x1024x14x14 ![] bcast_S_S32x1024x14x14 main_cst_2
  let main_v11 : IVec S32x1024x14x14 1 := cmpf .olt main_v9 main_v10
  let main_c_3 : IVec S_ 1 := constantI S_ 1 1#1
  let main_v12 : IVec S_ 1 := (fun x v => Host.reduce IntOp.andi x v reducesTo_S32x1024x14x14_S_d0_1_2_3 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S32x1024x1024 : Shape := ⟨3, ![32, 1024, 1024]⟩
abbrev S32x1024x14x14 : Shape := ⟨4, ![32, 1024, 14, 14]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S32x1024x196 : Shape := ⟨3, ![32, 1024, 196]⟩
abbrev S32x1024x256 : Shape := ⟨3, ![32, 1024, 256]⟩
abbrev S32x256x1024 : Shape := ⟨3, ![32, 256, 1024]⟩
abbrev S1x1024 : Shape := ⟨2, ![1, 1024]⟩
abbrev S1x512x1024 : Shape := ⟨3, ![1, 512, 1024]⟩
abbrev S1x1024x256 : Shape := ⟨3, ![1, 1024, 256]⟩
abbrev S1x256x1024 : Shape := ⟨3, ![1, 256, 1024]⟩
abbrev S1x512x196 : Shape := ⟨3, ![1, 512, 196]⟩
abbrev S512x1024 : Shape := ⟨2, ![512, 1024]⟩
abbrev S1024x256 : Shape := ⟨2, ![1024, 256]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩
abbrev S512x196 : Shape := ⟨2, ![512, 196]⟩

abbrev nBuf : Space → Nat
  | .hbm => 38
  | .vmem => 16
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S32x1024x14x14, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024x1, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024x1, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .bf16⟩
  | .hbm, ⟨28, _⟩ => ⟨S32x1024x196, .f32⟩
  | .hbm, ⟨29, _⟩ => ⟨S_, .i32⟩
  | .hbm, ⟨30, _⟩ => ⟨S_, .f32⟩
  | .hbm, ⟨31, _⟩ => ⟨S32x1024x256, .f32⟩
  | .hbm, ⟨32, _⟩ => ⟨S32x256x1024, .f32⟩
  | .hbm, ⟨33, _⟩ => ⟨S32x1024x1024, .bf16⟩
  | .hbm, ⟨34, _⟩ => ⟨S1x1024, .f32⟩
  | .hbm, ⟨35, _⟩ => ⟨S1x1024, .f32⟩
  | .hbm, ⟨36, _⟩ => ⟨S32x1024x1024, .f32⟩
  | .hbm, ⟨37, _⟩ => ⟨S32x1024x196, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x196, .f32⟩
  | .local _ .vmem, ⟨15, _⟩ => ⟨S1x512x196, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_cst : Ref sig .tc := ⟨.hbm, 18, rfl⟩
abbrev main_call1_v1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_call2_v0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19_0 : Ref sig .tc := ⟨.hbm, 36, rfl⟩
abbrev main_v19_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x196 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  reducesTo_S1024x1024_S1024_d1 : S1024x1024.ReducesTo [1] S1024
  h_S_ : 0 < S_.numel
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  transposes_S1024x1024_S1024x1024_1_0 : S1024x1024.Transposes [1, 0] S1024x1024
  bitsLt_bf16_f32 : FTy.bits .bf16 < FTy.bits .f32
  shapeCasts_S32x1024x14x14_S32x1024x196 : S32x1024x14x14.ShapeCasts S32x1024x196
  pads_S32x1024x196_S32x1024x256_000_000_0600 : S32x1024x196.Pads (![0, 0, 0] : Fin 3 → Nat) ![0, 0, 60] ![0, 0, 0] S32x1024x256
  transposes_S32x1024x256_S32x256x1024_0_2_1 : S32x1024x256.Transposes [0, 2, 1] S32x256x1024
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  iota_S512x256_d1_w32 : S512x256.Iotas .tc 32 [1]
  reduces_S512x256_S512 : S512x256.Reduces [1] S512
  shapeCasts_S512_S512x1 : S512.ShapeCasts S512x1
  broadcasts_S512x1_S512x256 : S512x1.Broadcasts S512x256
  shapeCasts_S512x1024_S1x512x1024 : S512x1024.ShapeCasts S1x512x1024
  slices_S512x256_o0_0_S512x196 : S512x256.Slices ![0, 0] S512x196
  inb_S1x512x196_S1x512x196_0_0_0 : ∀ a, (![0, 0, 0] : Fin 3 → Nat) a + S1x512x196.size a ≤ S1x512x196.size a
  h_S1x512x196 : 0 < S1x512x196.numel
  shapeCasts_S1x512x196_S512x196 : S1x512x196.ShapeCasts S512x196
  shapeCasts_S512x196_S1x512x196 : S512x196.ShapeCasts S1x512x196
  dot_S512x1024_S1024x1024_S512x1024_1_0_0_1_n_n_wf : DotDims.WF S512x1024 S1024x1024 S512x1024 [1] [0] [0] [1] [] []
  dot_S512x1024_S1024x256_S512x256_1_0_0_1_n_n_wf : DotDims.WF S512x1024 S1024x256 S512x256 [1] [0] [0] [1] [] []
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x1024x1024.size a
  hwx0_0 : ∀ i : grid0.Coords, EltTy.bits .f32 = 32 ∨ (Rect.block (s := S32x1024x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S32x1024x1024.size a
  hwx0_1 : ∀ i : grid0.Coords, EltTy.bits .bf16 = 32 ∨ (Rect.block (s := S32x1024x1024) S1x512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S32x1024x256.size a
  hwx0_2 : ∀ i : grid0.Coords, EltTy.bits .f32 = 32 ∨ (Rect.block (s := S32x1024x256) S1x1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S32x256x1024.size a
  hwx0_3 : ∀ i : grid0.Coords, EltTy.bits .f32 = 32 ∨ (Rect.block (s := S32x256x1024) S1x256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .f32 = 32 ∨ (Rect.block (s := S1024x1024) S1024x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x1024.size a ≤ S32x1024x1024.size a
  hwx0_8 : ∀ i : grid0.Coords, EltTy.bits .f32 = 32 ∨ (Rect.block (s := S32x1024x1024) S1x512x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x196.size a ≤ S32x1024x196.size a
  hwx0_9 : ∀ i : grid0.Coords, EltTy.bits .f32 = 32 ∨ (Rect.block (s := S32x1024x196) S1x512x196.size (cc0_transform_9 i) (hinb0_9 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19_0) S1x512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v19_1) S1x512x196.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S32x1024x14x14 : Shape := ⟨4, ![32, 1024, 14, 14]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1x1024 : Shape := ⟨3, ![1, 1, 1024]⟩
abbrev S32x1024x196 : Shape := ⟨3, ![32, 1024, 196]⟩
abbrev S32x1024 : Shape := ⟨2, ![32, 1024]⟩
abbrev S32x1024x1 : Shape := ⟨3, ![32, 1024, 1]⟩

abbrev nBuf : Space → Nat
  | .hbm => 61
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S32x1024x14x14, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024x1, .f32⟩
  | .hbm, ⟨15, _⟩ => ⟨S1024x1024, .f32⟩
  | .hbm, ⟨16, _⟩ => ⟨S1024x1024, .f32⟩
  | .hbm, ⟨17, _⟩ => ⟨S32x1024x1024, .f32⟩
  | .hbm, ⟨18, _⟩ => ⟨S1x1x1024, .f32⟩
  | .hbm, ⟨19, _⟩ => ⟨S32x1024x1024, .f32⟩
  | .hbm, ⟨20, _⟩ => ⟨S32x1024x1024, .f32⟩
  | .hbm, ⟨21, _⟩ => ⟨S32x1024x1024, .f32⟩
  | .hbm, ⟨22, _⟩ => ⟨S_, .f32⟩
  | .hbm, ⟨23, _⟩ => ⟨S32x1024x1024, .f32⟩
  | .hbm, ⟨24, _⟩ => ⟨S32x1024x1024, .f32⟩
  | .hbm, ⟨25, _⟩ => ⟨S32x1024x196, .f32⟩
  | .hbm, ⟨26, _⟩ => ⟨S32x1024x196, .f32⟩
  | .hbm, ⟨27, _⟩ => ⟨S_, .f32⟩
  | .hbm, ⟨28, _⟩ => ⟨S32x1024, .f32⟩
  | .hbm, ⟨29, _⟩ => ⟨S_, .f32⟩
  | .hbm, ⟨30, _⟩ => ⟨S32x1024, .f32⟩
  | .hbm, ⟨31, _⟩ => ⟨S32x1024, .f32⟩
  | .hbm, ⟨32, _⟩ => ⟨S32x1024x1, .f32⟩
  | .hbm, ⟨33, _⟩ => ⟨S32x1024x196, .f32⟩
  | .hbm, ⟨34, _⟩ => ⟨S32x1024x196, .f32⟩
  | .hbm, ⟨35, _⟩ => ⟨S32x1024x196, .f32⟩
  | .hbm, ⟨36, _⟩ => ⟨S_, .f32⟩
  | .hbm, ⟨37, _⟩ => ⟨S32x1024, .f32⟩
  | .hbm, ⟨38, _⟩ => ⟨S32x1024x1, .f32⟩
  | .hbm, ⟨39, _⟩ => ⟨S32x1024x196, .f32⟩
  | .hbm, ⟨40, _⟩ => ⟨S32x1024x196, .f32⟩
  | .hbm, ⟨41, _⟩ => ⟨S32x1024x1024, .f32⟩
  | .hbm, ⟨42, _⟩ => ⟨S_, .f32⟩
  | .hbm, ⟨43, _⟩ => ⟨S32x1024x1024, .f32⟩
  | .hbm, ⟨44, _⟩ => ⟨S32x1024x1024, .f32⟩
  | .hbm, ⟨45, _⟩ => ⟨S1024x1024, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S1024, .f32⟩
  | .hbm, ⟨50, _⟩ => ⟨S1024x1, .f32⟩
  | .hbm, ⟨51, _⟩ => ⟨S1024x1024, .f32⟩
  | .hbm, ⟨52, _⟩ => ⟨S1024x1024, .f32⟩
  | .hbm, ⟨53, _⟩ => ⟨S32x1024x1024, .f32⟩
  | .hbm, ⟨54, _⟩ => ⟨S1x1x1024, .f32⟩
  | .hbm, ⟨55, _⟩ => ⟨S32x1024x1024, .f32⟩
  | .hbm, ⟨56, _⟩ => ⟨S32x1024x1024, .f32⟩
  | .hbm, ⟨57, _⟩ => ⟨S32x1024x1024, .f32⟩
  | .hbm, ⟨58, _⟩ => ⟨S_, .f32⟩
  | .hbm, ⟨59, _⟩ => ⟨S32x1024x1024, .f32⟩
  | .hbm, ⟨60, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_call1_v0 : Ref sig .tc := ⟨.hbm, 45, rfl⟩
abbrev main_call1_cst : Ref sig .tc := ⟨.hbm, 46, rfl⟩
abbrev main_call1_v1 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]

class Facts₀ : Prop where
  reducesTo_S1024x1024_S1024_d1 : S1024x1024.ReducesTo [1] S1024
  h_S_ : 0 < S_.numel
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  bcast_S1024_S1x1x1024_2 : S1024.BroadcastsInDim S1x1x1024 (![2] : Fin 1 → Fin S1x1x1024.rank)
  bcast_S1x1x1024_S32x1024x1024_0_1_2 : S1x1x1024.BroadcastsInDim S32x1024x1024 (![0, 1, 2] : Fin 3 → Fin S32x1024x1024.rank)
  bcast_S_S32x1024x1024 : S_.BroadcastsInDim S32x1024x1024 (![] : Fin 0 → Fin S32x1024x1024.rank)
  shapeCasts_S32x1024x14x14_S32x1024x196 : S32x1024x14x14.ShapeCasts S32x1024x196
  reducesTo_S32x1024x196_S32x1024_d2 : S32x1024x196.ReducesTo [2] S32x1024
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x196_0_1_2 : S32x1024x1.BroadcastsInDim S32x1024x196 (![0, 1, 2] : Fin 3 → Fin S32x1024x196.rank)
  dot_S32x1024x1024_S1024x1024_S32x1024x1024_2_1_01_0_n_n_wf : DotDims.WF S32x1024x1024 S1024x1024 S32x1024x1024 [2] [1] [0, 1] [0] [] []
  dot_S32x1024x1024_S32x1024x196_S32x1024x196_2_1_1_2_0_0_wf : DotDims.WF S32x1024x1024 S32x1024x196 S32x1024x196 [2] [1] [1] [2] [0] [0]
  dot_S32x1024x196_S32x1024x196_S32x1024x1024_2_2_1_1_0_0_wf : DotDims.WF S32x1024x196 S32x1024x196 S32x1024x1024 [2] [2] [1] [1] [0] [0]

variable [Facts₀]

def dot_S32x1024x1024_S1024x1024_S32x1024x1024_2_1_01_0_n_n : DotDims S32x1024x1024 S1024x1024 S32x1024x1024 where
  lhsContracting := [2]
  rhsContracting := [1]
  lhsNonContracting := [0, 1]
  rhsNonContracting := [0]
  lhsBatch := []
  rhsBatch := []
  wf := dot_S32x1024x1024_S1024x1024_S32x1024x1024_2_1_01_0_n_n_wf
def dot_S32x1024x1024_S32x1024x196_S32x1024x196_2_1_1_2_0_0 : DotDims S32x1024x1024 S32x1024x196 S32x1024x196 where
  lhsContracting := [2]
  rhsContracting := [1]
  lhsNonContracting := [1]
  rhsNonContracting := [2]
  lhsBatch := [0]
  rhsBatch := [0]
  wf := dot_S32x1024x1024_S32x1024x196_S32x1024x196_2_1_1_2_0_0_wf
def dot_S32x1024x196_S32x1024x196_S32x1024x1024_2_2_1_1_0_0 : DotDims S32x1024x196 S32x1024x196 S32x1024x1024 where
  lhsContracting := [2]
  rhsContracting := [2]
  lhsNonContracting := [1]
  rhsNonContracting := [1]
  lhsBatch := [0]
  rhsBatch := [0]
  wf := dot_S32x1024x196_S32x1024x196_S32x1024x1024_2_2_1_1_0_0_wf

class Facts : Prop extends Facts₀ where

variable [Facts]
-- ==== Proof.BlockReads.lean ====
/-
  The grid and the blocks. The 64 grid points are the pairs (batch, half of the rows): point t works on batch
  `batchOf t` and on the 512 rows `rowOf t r`. Each input window's block at a point, read at coordinates, is the window's
  array at the matching coordinates: the x and word-embedding blocks at (batch, row, ·), the two feature matrices at
  (batch, ·, ·), and the projections and biases whole. The index maps' values are decided once over the grid.
-/
import proofs.«128589_j6442450944088_2_alg».proof.Proof.Gen.KernelIdeal.Value
import Idealize.ShloMosaic.Lib.ValueIdx

noncomputable section

namespace Cert.KernelIdeal.BlockReads

open Cert.KernelIdeal Cert.KernelIdeal.Gen Cert.KernelIdeal.Value Idealize.ShloMosaic Idealize.ShloMosaic.TcCoe Idealize.SL.Sem Idealize.ShloMosaic.ValueIdx

variable (m : (ℓ : Loc nD τ sig) → Buf (Elt Ideal) ℓ) (c : Dev nD)

/-- The printed index maps over the grid: the output window's block index is (batch, half, 0) with batch below 32 and half
    below 2; the x, word-embedding and attention windows move with it, the feature windows with its batch, and the weights
    and biases stay at the origin. -/
theorem idx_facts : ∀ t : Fin cfg0.N,
    win0_8.index t (0 : Fin 3) ≤ 31 ∧ win0_8.index t (1 : Fin 3) ≤ 1 ∧ win0_8.index t (2 : Fin 3) = 0
    ∧ win0_0.index t (0 : Fin 3) = win0_8.index t (0 : Fin 3) ∧ win0_0.index t (1 : Fin 3) = win0_8.index t (1 : Fin 3) ∧ win0_0.index t (2 : Fin 3) = 0
    ∧ win0_1.index t (0 : Fin 3) = win0_8.index t (0 : Fin 3) ∧ win0_1.index t (1 : Fin 3) = win0_8.index t (1 : Fin 3) ∧ win0_1.index t (2 : Fin 3) = 0
    ∧ win0_2.index t (0 : Fin 3) = win0_8.index t (0 : Fin 3) ∧ win0_2.index t (1 : Fin 3) = 0 ∧ win0_2.index t (2 : Fin 3) = 0
    ∧ win0_3.index t (0 : Fin 3) = win0_8.index t (0 : Fin 3) ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_9.index t (0 : Fin 3) = win0_8.index t (0 : Fin 3) ∧ win0_9.index t (1 : Fin 3) = win0_8.index t (1 : Fin 3) ∧ win0_9.index t (2 : Fin 3) = 0 :=
  (by decide +kernel : ∀ t : Fin grid0.N, _)

/-- Every (batch, half) is some point's. -/
theorem idx_onto : ∀ (q0 : Fin 32) (q1 : Fin 2), ∃ t : Fin cfg0.N, win0_8.index t (0 : Fin 3) = q0.val ∧ win0_8.index t (1 : Fin 3) = q1.val :=
  (by decide +kernel : ∀ (q0 : Fin 32) (q1 : Fin 2), ∃ t : Fin grid0.N, win0_8.index t (0 : Fin 3) = q0.val ∧ win0_8.index t (1 : Fin 3) = q1.val)

/-- The batch point `t` works on. -/
def batchOf (t : Fin cfg0.N) : Fin 32 := ⟨win0_8.index t (0 : Fin 3), by have := (idx_facts t).1; omega⟩

/-- The array row that row `r` of point `t`'s block is. -/
def rowOf (t : Fin cfg0.N) (r : Fin 512) : Fin 1024 :=
  ⟨win0_8.index t (1 : Fin 3) * 512 + r.val, by have := (idx_facts t).2.1; have := r.isLt; omega⟩

theorem read0 (t : Fin cfg0.N) (r : Fin 512) (cc : Fin 1024) :
    iblk m c 0 t (ix3 (0 : Fin 1) r cc) = (V m c main_arg0 : S32x1024x1024.Idx → EReal) (ix3 (batchOf t) (rowOf t r) cc) := by
  show (V m c main_arg0 : S32x1024x1024.Idx → EReal) (((cfg0.win 0).blk t).view.emb (ix3 (0 : Fin 1) r cc)) = _
  refine congrArg _ (funext fun a => Fin.ext ?_)
  have hf := idx_facts t
  match a with
  | ⟨0, _⟩ => show win0_0.index t (0 : Fin 3) * 1 + 1 * (0 : Nat) = win0_8.index t (0 : Fin 3); omega
  | ⟨1, _⟩ => show win0_0.index t (1 : Fin 3) * 512 + 1 * r.val = win0_8.index t (1 : Fin 3) * 512 + r.val; omega
  | ⟨2, _⟩ => show win0_0.index t (2 : Fin 3) * 1024 + 1 * cc.val = cc.val; omega

theorem read1 (t : Fin cfg0.N) (r : Fin 512) (e : Fin 1024) :
    iblk m c 1 t (ix3 (0 : Fin 1) r e) = (V m c main_v16 : S32x1024x1024.Idx → EReal) (ix3 (batchOf t) (rowOf t r) e) := by
  show (V m c main_v16 : S32x1024x1024.Idx → EReal) (((cfg0.win 1).blk t).view.emb (ix3 (0 : Fin 1) r e)) = _
  refine congrArg _ (funext fun a => Fin.ext ?_)
  have hf := idx_facts t
  match a with
  | ⟨0, _⟩ => show win0_1.index t (0 : Fin 3) * 1 + 1 * (0 : Nat) = win0_8.index t (0 : Fin 3); omega
  | ⟨1, _⟩ => show win0_1.index t (1 : Fin 3) * 512 + 1 * r.val = win0_8.index t (1 : Fin 3) * 512 + r.val; omega
  | ⟨2, _⟩ => show win0_1.index t (2 : Fin 3) * 1024 + 1 * e.val = e.val; omega

theorem read2 (t : Fin cfg0.N) (e : Fin 1024) (k : Fin 256) :
    iblk m c 2 t (ix3 (0 : Fin 1) e k) = (V m c main_v14 : S32x1024x256.Idx → EReal) (ix3 (batchOf t) e k) := by
  show (V m c main_v14 : S32x1024x256.Idx → EReal) (((cfg0.win 2).blk t).view.emb (ix3 (0 : Fin 1) e k)) = _
  refine congrArg _ (funext fun a => Fin.ext ?_)
  have hf := idx_facts t
  match a with
  | ⟨0, _⟩ => show win0_2.index t (0 : Fin 3) * 1 + 1 * (0 : Nat) = win0_8.index t (0 : Fin 3); omega
  | ⟨1, _⟩ => show win0_2.index t (1 : Fin 3) * 1024 + 1 * e.val = e.val; omega
  | ⟨2, _⟩ => show win0_2.index t (2 : Fin 3) * 256 + 1 * k.val = k.val; omega

theorem read3 (t : Fin cfg0.N) (k : Fin 256) (e : Fin 1024) :
    iblk m c 3 t (ix3 (0 : Fin 1) k e) = (V m c main_v15 : S32x256x1024.Idx → EReal) (ix3 (batchOf t) k e) := by
  show (V m c main_v15 : S32x256x1024.Idx → EReal) (((cfg0.win 3).blk t).view.emb (ix3 (0 : Fin 1) k e)) = _
  refine congrArg _ (funext fun a => Fin.ext ?_)
  have hf := idx_facts t
  match a with
  | ⟨0, _⟩ => show win0_3.index t (0 : Fin 3) * 1 + 1 * (0 : Nat) = win0_8.index t (0 : Fin 3); omega
  | ⟨1, _⟩ => show win0_3.index t (1 : Fin 3) * 256 + 1 * k.val = k.val; omega
  | ⟨2, _⟩ => show win0_3.index t (2 : Fin 3) * 1024 + 1 * e.val = e.val; omega

theorem read4 (t : Fin cfg0.N) (cc e : Fin 1024) :
    iblk m c 4 t (ix2 cc e) = (V m c main_v10 : S1024x1024.Idx → EReal) (ix2 cc e) := by
  show (V m c main_v10 : S1024x1024.Idx → EReal) (((cfg0.win 4).blk t).view.emb (ix2 cc e)) = _
  refine congrArg _ (funext fun a => Fin.ext ?_)
  have hf := idx_facts t
  match a with
  | ⟨0, _⟩ => show win0_4.index t (0 : Fin 2) * 1024 + 1 * cc.val = cc.val; omega
  | ⟨1, _⟩ => show win0_4.index t (1 : Fin 2) * 1024 + 1 * e.val = e.val; omega

theorem read5 (t : Fin cfg0.N) (e : Fin 1024) :
    iblk m c 5 t (ix2 (0 : Fin 1) e) = (V m c main_v17 : S1x1024.Idx → EReal) (ix2 (0 : Fin 1) e) := by
  show (V m c main_v17 : S1x1024.Idx → EReal) (((cfg0.win 5).blk t).view.emb (ix2 (0 : Fin 1) e)) = _
  refine congrArg _ (funext fun a => Fin.ext ?_)
  have hf := idx_facts t
  match a with
  | ⟨0, _⟩ => show win0_5.index t (0 : Fin 2) * 1 + 1 * (0 : Nat) = 0; omega
  | ⟨1, _⟩ => show win0_5.index t (1 : Fin 2) * 1024 + 1 * e.val = e.val; omega

theorem read6 (t : Fin cfg0.N) (e cc : Fin 1024) :
    iblk m c 6 t (ix2 e cc) = (V m c main_v12 : S1024x1024.Idx → EReal) (ix2 e cc) := by
  show (V m c main_v12 : S1024x1024.Idx → EReal) (((cfg0.win 6).blk t).view.emb (ix2 e cc)) = _
  refine congrArg _ (funext fun a => Fin.ext ?_)
  have hf := idx_facts t
  match a with
  | ⟨0, _⟩ => show win0_6.index t (0 : Fin 2) * 1024 + 1 * e.val = e.val; omega
  | ⟨1, _⟩ => show win0_6.index t (1 : Fin 2) * 1024 + 1 * cc.val = cc.val; omega

theorem read7 (t : Fin cfg0.N) (cc : Fin 1024) :
    iblk m c 7 t (ix2 (0 : Fin 1) cc) = (V m c main_v18 : S1x1024.Idx → EReal) (ix2 (0 : Fin 1) cc) := by
  show (V m c main_v18 : S1x1024.Idx → EReal) (((cfg0.win 7).blk t).view.emb (ix2 (0 : Fin 1) cc)) = _
  refine congrArg _ (funext fun a => Fin.ext ?_)
  have hf := idx_facts t
  match a with
  | ⟨0, _⟩ => show win0_7.index t (0 : Fin 2) * 1 + 1 * (0 : Nat) = 0; omega
  | ⟨1, _⟩ => show win0_7.index t (1 : Fin 2) * 1024 + 1 * cc.val = cc.val; omega

end Cert.KernelIdeal.BlockReads

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.BlockProducts.lean ====
/-
  The three matrix products of the kernel body, each read at one entry.

  Every product of the body multiplies a block of rows by a whole matrix, contracting the rows' second axis with the
  matrix's first, into a zero accumulator; on the extended reals entry (p, c) is the plain sum over k of l[p, k] · r[k, c].
-/
import proofs.«128589_j6442450944088_2_alg».proof.Proof.Gen.KernelIdeal
import proofs.«128589_j6442450944088_2_alg».proof.Proof.LibPlainProduct

noncomputable section

open scoped BigOperators

namespace Cert.KernelIdeal.BlockProducts

open Cert.KernelIdeal Idealize.ShloMosaic Idealize.ShloMosaic.ValueIdx

theorem rows_by_square_l0 (j : S512x1024.Idx) (q : dot_S512x1024_S1024x1024_S512x1024_1_0_0_1_n_n.contr.Idx) : (dot_S512x1024_S1024x1024_S512x1024_1_0_0_1_n_n.lhsIdx j q (0 : Fin 2)).val = (j (0 : Fin 2)).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem rows_by_square_r1 (j : S512x1024.Idx) (q : dot_S512x1024_S1024x1024_S512x1024_1_0_0_1_n_n.contr.Idx) : (dot_S512x1024_S1024x1024_S512x1024_1_0_0_1_n_n.rhsIdx j q (1 : Fin 2)).val = (j (1 : Fin 2)).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- 512 rows of 1024 by a 1024 × 1024 matrix (the two projections). -/
theorem rows_by_square {φ₁ φ₂ : FTy} (l : FVec Ideal S512x1024 φ₁) (r : FVec Ideal S1024x1024 φ₂) (p : Fin 512) (c : Fin 1024) :
    FloatOps.matmul dot_S512x1024_S1024x1024_S512x1024_1_0_0_1_n_n none l r (constant (F := Ideal) S512x1024 .f32 0x00000000#32) (ix2 p c)
      = ∑ k : Fin 1024, l (ix2 p k) * r (ix2 k c) :=
  Cert.PlainProduct.matmul_zero_entry dot_S512x1024_S1024x1024_S512x1024_1_0_0_1_n_n rfl rfl (rows_by_square_l0) (fun j q => dot_S512x1024_S1024x1024_S512x1024_1_0_0_1_n_n.lhsIdx_val_of_single rfl j q)
    (fun j q => dot_S512x1024_S1024x1024_S512x1024_1_0_0_1_n_n.rhsIdx_val_of_single rfl j q) (rows_by_square_r1) l r p c

theorem rows_by_features_l0 (j : S512x256.Idx) (q : dot_S512x1024_S1024x256_S512x256_1_0_0_1_n_n.contr.Idx) : (dot_S512x1024_S1024x256_S512x256_1_0_0_1_n_n.lhsIdx j q (0 : Fin 2)).val = (j (0 : Fin 2)).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
theorem rows_by_features_r1 (j : S512x256.Idx) (q : dot_S512x1024_S1024x256_S512x256_1_0_0_1_n_n.contr.Idx) : (dot_S512x1024_S1024x256_S512x256_1_0_0_1_n_n.rhsIdx j q (1 : Fin 2)).val = (j (1 : Fin 2)).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

/-- 512 hidden rows of 1024 by the 1024 × 256 padded feature matrix (the scores). -/
theorem rows_by_features {φ₁ φ₂ : FTy} (l : FVec Ideal S512x1024 φ₁) (r : FVec Ideal S1024x256 φ₂) (p : Fin 512) (c : Fin 256) :
    FloatOps.matmul dot_S512x1024_S1024x256_S512x256_1_0_0_1_n_n none l r (constant (F := Ideal) S512x256 .f32 0x00000000#32) (ix2 p c)
      = ∑ k : Fin 1024, l (ix2 p k) * r (ix2 k c) :=
  Cert.PlainProduct.matmul_zero_entry dot_S512x1024_S1024x256_S512x256_1_0_0_1_n_n rfl rfl (rows_by_features_l0) (fun j q => dot_S512x1024_S1024x256_S512x256_1_0_0_1_n_n.lhsIdx_val_of_single rfl j q)
    (fun j q => dot_S512x1024_S1024x256_S512x256_1_0_0_1_n_n.rhsIdx_val_of_single rfl j q) (rows_by_features_r1) l r p c

theorem weights_by_features_l0 (j : S512x1024.Idx) (q : dot_S512x256_S256x1024_S512x1024_1_0_0_1_n_n.contr.Idx) : (dot_S512x256_S256x1024_S512x1024_1_0_0_1_n_n.lhsIdx j q (0 : Fin 2)).val = (j (0 : Fin 2)).val := by
  unfold DotDims.lhsIdx
  rw [dif_neg (show ¬(0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
  rfl
theorem weights_by_features_r1 (j : S512x1024.Idx) (q : dot_S512x256_S256x1024_S512x1024_1_0_0_1_n_n.contr.Idx) : (dot_S512x256_S256x1024_S512x1024_1_0_0_1_n_n.rhsIdx j q (1 : Fin 2)).val = (j (1 : Fin 2)).val := by
  unfold DotDims.rhsIdx
  rw [dif_neg (show ¬(1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
  rfl

/-- 512 rows of 256 attention weights by the 256 × 1024 transposed padded feature matrix (the attended features). -/
theorem weights_by_features {φ₁ φ₂ : FTy} (l : FVec Ideal S512x256 φ₁) (r : FVec Ideal S256x1024 φ₂) (p : Fin 512) (c : Fin 1024) :
    FloatOps.matmul dot_S512x256_S256x1024_S512x1024_1_0_0_1_n_n none l r (constant (F := Ideal) S512x1024 .f32 0x00000000#32) (ix2 p c)
      = ∑ k : Fin 256, l (ix2 p k) * r (ix2 k c) :=
  Cert.PlainProduct.matmul_zero_entry dot_S512x256_S256x1024_S512x1024_1_0_0_1_n_n rfl rfl (weights_by_features_l0) (fun j q => dot_S512x256_S256x1024_S512x1024_1_0_0_1_n_n.lhsIdx_val_of_single rfl j q)
    (fun j q => dot_S512x256_S256x1024_S512x1024_1_0_0_1_n_n.rhsIdx_val_of_single rfl j q) (weights_by_features_r1) l r p c

end Cert.KernelIdeal.BlockProducts

end
-- ==== Proof.ScoreBlock.lean ====
/-
  The first half of the kernel body, read at one entry: the hidden rows and the masked scores.

  For a block of 512 rows of x (P0, one leading unit axis), the matching rows of the word embedding (P1), the padded
  feature matrix of the batch (P2: 1024 channels by 256 columns, one leading unit axis), the transposed in-projection (P4:
  input channel by output channel) and the in-bias as one row (P5):

    hidden r e = ((Σ_c P0[0, r, c] · P4[c, e]) + P5[0, e] + P1[0, r, e]) · s
    masked r k = Σ_e hidden r e · P2[0, e, k]   for a column k below 196,   and the bottom element for a padded column.

  The mask is the body's select on "column index below 196" against the fill, which the certificate's table reads as
  the bottom element.
-/
import proofs.«128589_j6442450944088_2_alg».proof.Proof.Gen.KernelIdeal.Skeleton
import proofs.«128589_j6442450944088_2_alg».proof.Proof.BlockProducts
import Idealize.ShloMosaic.Lib.Pipeline.Value
import Idealize.ShloMosaic.Lib.ValueLayout

noncomputable section

open scoped BigOperators

namespace Cert.KernelIdeal.ScoreBlock

open Cert.KernelIdeal Cert.KernelIdeal.Gen Idealize.ShloMosaic Idealize.ShloMosaic.ValueIdx

variable (P0 : FVec Ideal S1x512x1024 .f32) (P1 : FVec Ideal S1x512x1024 .bf16) (P2 : FVec Ideal S1x1024x256 .f32)
  (P4 : FVec Ideal S1024x1024 .f32) (P5 : FVec Ideal S1x1024 .f32)

/-- The hidden block, as the body spells it. -/
def hidden : FVec Ideal S512x1024 .f32 :=
  mulf (addf (addf (matmul dot_S512x1024_S1024x1024_S512x1024_1_0_0_1_n_n none (k0_pay4 P0)
      (shapeCast S1024x1024 P4 shapeCasts_S1024x1024_S1024x1024) (constant S512x1024 .f32 0x00000000#32))
      (broadcastTo S512x1024 (shapeCast S1x1024 P5 shapeCasts_S1x1024_S1x1024) broadcasts_S1x1024_S512x1024))
      (extf .f32 (shapeCast S512x1024 P1 shapeCasts_S1x512x1024_S512x1024) bitsLt_bf16_f32))
    (broadcast S512x1024 (Scalar.ofBits .f32 0x3F3504F3#32))

/-- The hidden block at row `r`, channel `e`. -/
theorem hidden_at (r : Fin 512) (e : Fin 1024) :
    hidden P0 P1 P4 P5 (ix2 r e)
      = (((∑ c : Fin 1024, P0 (ix3 (0 : Fin 1) r c) * P4 (ix2 c e)) + P5 (ix2 (0 : Fin 1) e)) + P1 (ix3 (0 : Fin 1) r e))
          * Ideal.ofBits .f32 0x3F3504F3#32 := by
  unfold hidden
  simp only [mulf_apply, addf_apply, extf_apply, broadcast_apply, matmul]
  rw [BlockProducts.rows_by_square, broadcastTo_1b_ab_apply, shapeCast_self, shapeCast_self, shapeCast_1ab_ab_apply]
  refine congrArg (· * _) (congrArg (· + _) (congrArg (· + _) (Finset.sum_congr rfl fun c _ => ?_)))
  unfold k0_pay4
  rw [shapeCast_1ab_ab_apply]

/-- The masked scores are the select of the scores against the fill. -/
theorem pay8_eq : k0_pay8 P0 P1 P2 P4 P5
    = select (cmpi .slt (iota .tc S512x256 32 [1] iota_S512x256_d1_w32) (broadcast S512x256 196#32))
        (matmul dot_S512x1024_S1024x256_S512x256_1_0_0_1_n_n none (hidden P0 P1 P4 P5)
          (shapeCast S1024x256 P2 shapeCasts_S1x1024x256_S1024x256) (constant S512x256 .f32 0x00000000#32))
        (broadcast S512x256 (Named.named κ "neg_big" 0xF149F2CA#32)) := rfl

/-- A column index below 256, as a 32-bit word, is signed-below 196 exactly when the number is. -/
theorem col_lt (k : Fin 256) : IntOp.cmpi .slt (BitVec.ofNat 32 k.val) 196#32 = BitVec.ofBool (decide (k.val < 196)) :=
  (by decide +kernel : ∀ k : Fin 256, IntOp.cmpi .slt (BitVec.ofNat 32 k.val) 196#32 = BitVec.ofBool (decide (k.val < 196))) k

/-- The fill, at the ideal values, is the bottom element. -/
theorem fill_eq : (Named.named (F := Ideal) κ "neg_big" (φ := .f32) 0xF149F2CA#32 : EReal) = ⊥ := rfl

/-- The masked scores at row `r`, column `k`. -/
theorem masked_at (r : Fin 512) (k : Fin 256) :
    k0_pay8 P0 P1 P2 P4 P5 (ix2 r k)
      = if k.val < 196 then ∑ e : Fin 1024, hidden P0 P1 P4 P5 (ix2 r e) * P2 (ix3 (0 : Fin 1) e k) else ⊥ := by
  rw [pay8_eq, select_apply]
  have hc : cmpi .slt (iota .tc S512x256 32 [1] iota_S512x256_d1_w32) (broadcast S512x256 196#32) (ix2 r k)
      = BitVec.ofBool (decide (k.val < 196)) := by
    show IntOp.cmpi .slt (iota .tc S512x256 32 [1] iota_S512x256_d1_w32 (ix2 r k)) 196#32 = _
    rw [iota_single_apply]
    exact col_lt k
  rw [hc]
  by_cases h : k.val < 196
  · rw [if_pos h, decide_eq_true h]
    show Scalar.select 1#1 _ _ = _
    rw [select_one]
    simp only [matmul]
    rw [BlockProducts.rows_by_features]
    refine Finset.sum_congr rfl fun e _ => ?_
    rw [shapeCast_1ab_ab_apply]
  · rw [if_neg h, decide_eq_false h]
    show Scalar.select 0#1 _ _ = _
    rw [select_zero, broadcast_apply]
    exact fill_eq

end Cert.KernelIdeal.ScoreBlock

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.SoftmaxBlock.lean ====
/-
  The body's softmax over the 256 columns of a block, read at one entry.

  For scores v : [512, 256], the row maximum M r = max (v30 r) (v29 r) (the initial value and the reduced maximum, each
  one number per row) is kept as a column and broadcast back across the row; the quotient is

    exp (v r k − M r) / Σ_k' exp (v r k' − M r).

  Also here: the body's two row reductions read at a row, the maximum as the fold of `max` from its initial value over
  the row's columns and the sum as the plain sum over them.
-/
import proofs.«128589_j6442450944088_2_alg».proof.Proof.Gen.KernelIdeal.Skeleton
import proofs.«128589_j6442450944088_2_alg».proof.Proof.LibColumnLayout
import Idealize.ShloMosaic.Lib.Pipeline.Value
import Idealize.ShloMosaic.Lib.ValueLayout
import Idealize.ShloMosaic.PureOps.Ideal.Laws

noncomputable section

open scoped BigOperators

namespace Cert.KernelIdeal.SoftmaxBlock

open Cert.KernelIdeal Cert.KernelIdeal.Gen Idealize.ShloMosaic Idealize.ShloMosaic.ValueIdx

/-- A number per row, kept as a column and broadcast across the 256 columns, reads at (r, k) the row's number. -/
theorem column_at (u : FVec Ideal S512 .f32) (r : Fin 512) (k : Fin 256) :
    (broadcastTo S512x256 (shapeCast S512x1 u shapeCasts_S512_S512x1) broadcasts_S512x1_S512x256) (ix2 r k) = u (ix1 r) := by
  rw [Cert.ColumnLayout.broadcastTo_a1_ab_apply, Cert.ColumnLayout.shapeCast_a_a1_apply]

/-- The index the reduction over the columns reads for row `r` and column `k`. -/
theorem lift_eq (r : Fin 512) (k : Fin 256) :
    reduces_S512x256_S512.lift (ix1 r) k = ix2 r k :=
  funext fun a => by match a with | ⟨0, _⟩ => rfl | ⟨1, _⟩ => rfl

/-- The body's sum over a row's columns. -/
theorem rowsum_at (src : FVec Ideal S512x256 .f32) (r : Fin 512) :
    multiReduction .add [1] S512 src 0x00000000#32 reduces_S512x256_S512 (.inl rfl) rfl (ix1 r)
      = ∑ k : Fin 256, src (ix2 r k) :=
  (Ideal.multiReduction_add_single src 0x00000000#32 reduces_S512x256_S512 (.inl rfl) rfl (ix1 r)).trans
    (Finset.sum_congr rfl fun k _ => congrArg src (lift_eq r k))

/-- The body's maximum over a row's columns: the fold of `max` from the initial value. -/
theorem rowmax_at (src : FVec Ideal S512x256 .f32) (r : Fin 512) :
    multiReduction .maximumf [1] S512 src 0xFF800000#32 reduces_S512x256_S512 (.inl rfl) rfl (ix1 r)
      = (Finset.univ : Finset (Fin 256)).fold max (Ideal.ofBits .f32 0xFF800000#32) (fun k => src (ix2 r k)) :=
  (Ideal.multiReduction_maximumf_single src 0xFF800000#32 reduces_S512x256_S512 (.inl rfl) rfl (ix1 r)).trans
    (congrArg (fun f => (Finset.univ : Finset (Fin 256)).fold max (Ideal.ofBits .f32 0xFF800000#32) f)
      (funext fun k => congrArg src (lift_eq r k)))

variable (v28 : FVec Ideal S512x256 .f32) (v29 v30 : FVec Ideal S512 .f32)

/-- The shifted exponentials of the body. -/
def shifted : FVec Ideal S512x256 .f32 :=
  exp (subf v28 (broadcastTo S512x256 (shapeCast S512x1 (maximumf v30 v29) shapeCasts_S512_S512x1) broadcasts_S512x1_S512x256))

theorem shifted_at (r : Fin 512) (k : Fin 256) :
    shifted v28 v29 v30 (ix2 r k) = Ideal.exp (v28 (ix2 r k) - max (v30 (ix1 r)) (v29 (ix1 r))) := by
  unfold shifted
  show Ideal.exp (v28 (ix2 r k) - (broadcastTo S512x256 (shapeCast S512x1 (maximumf v30 v29) shapeCasts_S512_S512x1) broadcasts_S512x1_S512x256) (ix2 r k)) = _
  rw [column_at]
  rfl

/-- The quotient is the shifted exponentials over their row sums, kept as a column. -/
theorem pay1_eq : k0_pay1 v28 v29 v30
    = divf (shifted v28 v29 v30)
        (broadcastTo S512x256 (shapeCast S512x1
          (multiReduction .add [1] S512 (shifted v28 v29 v30) 0x00000000#32 reduces_S512x256_S512 (.inl rfl) rfl)
          shapeCasts_S512_S512x1) broadcasts_S512x1_S512x256) := rfl

/-- The softmax quotient at row `r`, column `k`. -/
theorem quotient_at (r : Fin 512) (k : Fin 256) :
    k0_pay1 v28 v29 v30 (ix2 r k)
      = Ideal.div (Ideal.exp (v28 (ix2 r k) - max (v30 (ix1 r)) (v29 (ix1 r))))
          (∑ k' : Fin 256, Ideal.exp (v28 (ix2 r k') - max (v30 (ix1 r)) (v29 (ix1 r)))) := by
  rw [pay1_eq, divf_apply, column_at, rowsum_at, shifted_at]
  exact congrArg (Ideal.div _) (Finset.sum_congr rfl fun k' _ => shifted_at v28 v29 v30 r k')

end Cert.KernelIdeal.SoftmaxBlock

end
-- ==== Proof.OutBlock.lean ====
/-
  The second half of the kernel body, read at one entry: the attended features, the output rows and the stored weights.

  For the softmax quotient a : [512, 256] of a block, the transposed padded feature matrix v8 : [256, 1024], the transposed
  out-projection v12 : [1024, 1024] (hidden channel by output channel), the out-bias as one row v16 and the block of x rows
  v1:

    attended r e = (Σ_k a[r, k] · v8[k, e]) · q
    output r c = ((Σ_e attended r e · v12[e, c]) + v16[0, c] + v1[r, c]) · s

  and the stored attention weights are the quotient's first 196 columns. The stores add a leading unit axis.
-/
import proofs.«128589_j6442450944088_2_alg».proof.Proof.Gen.KernelIdeal.Skeleton
import proofs.«128589_j6442450944088_2_alg».proof.Proof.BlockProducts
import Idealize.ShloMosaic.Lib.Pipeline.Value
import Idealize.ShloMosaic.Lib.ValueLayout

noncomputable section

open scoped BigOperators

namespace Cert.KernelIdeal.OutBlock

open Cert.KernelIdeal Cert.KernelIdeal.Gen Idealize.ShloMosaic Idealize.ShloMosaic.ValueIdx

/-- The attended features of a block, scaled and narrowed, as the body spells them. -/
def attended (a : FVec Ideal S512x256 .f32) (v8 : FVec Ideal S256x1024 .f32) : FVec Ideal S512x1024 .bf16 :=
  truncf .bf16 (mulf (matmul dot_S512x256_S256x1024_S512x1024_1_0_0_1_n_n none a v8 (constant S512x1024 .f32 0x00000000#32))
    (broadcast S512x1024 (Scalar.ofBits .f32 0x41600000#32))) bitsLt_bf16_f32

theorem attended_at (a : FVec Ideal S512x256 .f32) (v8 : FVec Ideal S256x1024 .f32) (r : Fin 512) (e : Fin 1024) :
    attended a v8 (ix2 r e) = (∑ k : Fin 256, a (ix2 r k) * v8 (ix2 k e)) * Ideal.ofBits .f32 0x41600000#32 := by
  unfold attended
  simp only [truncf_apply, mulf_apply, broadcast_apply, matmul]
  rw [BlockProducts.weights_by_features]
  rfl

variable (v1 : FVec Ideal S512x1024 .f32) (v8 : FVec Ideal S256x1024 .f32) (v12 : FVec Ideal S1024x1024 .bf16)
  (v16 : FVec Ideal S1x1024 .f32) (v28 : FVec Ideal S512x256 .f32) (v29 v30 : FVec Ideal S512 .f32)

/-- The stored output block over the attended features. -/
theorem pay2_eq : k0_pay2 v1 v8 v12 v16 v28 v29 v30
    = shapeCast S1x512x1024
        (mulf (addf (addf (matmul dot_S512x1024_S1024x1024_S512x1024_1_0_0_1_n_n none (attended (k0_pay1 v28 v29 v30) v8) v12
            (constant S512x1024 .f32 0x00000000#32))
            (broadcastTo S512x1024 v16 broadcasts_S1x1024_S512x1024)) v1)
          (broadcast S512x1024 (Scalar.ofBits .f32 0x3F3504F3#32)))
        shapeCasts_S512x1024_S1x512x1024 := rfl

/-- The stored output block at row `r`, channel `c`. -/
theorem output_at (u : Fin 1) (r : Fin 512) (c : Fin 1024) :
    k0_pay2 v1 v8 v12 v16 v28 v29 v30 (ix3 u r c)
      = (((∑ e : Fin 1024, attended (k0_pay1 v28 v29 v30) v8 (ix2 r e) * v12 (ix2 e c)) + v16 (ix2 (0 : Fin 1) c)) + v1 (ix2 r c))
          * Ideal.ofBits .f32 0x3F3504F3#32 := by
  rw [pay2_eq, shapeCast_ab_1ab_apply]
  simp only [mulf_apply, addf_apply, broadcast_apply, matmul]
  rw [BlockProducts.rows_by_square, broadcastTo_1b_ab_apply]
  rfl

/-- The stored attention block at row `r`, position `k`: the quotient's entry there. -/
theorem stored_at (u : Fin 1) (r : Fin 512) (k : Fin 196) :
    k0_pay3 v28 v29 v30 (ix3 u r k) = k0_pay1 v28 v29 v30 (ix2 r (Fin.castLE (by decide : 196 ≤ 256) k)) := by
  unfold k0_pay3
  rw [shapeCast_ab_1ab_apply]
  exact extractStridedSlice_apply ![0, 0] _ _ (ix2 r k) (ix2 r (Fin.castLE (by decide : 196 ≤ 256) k))
    (fun a => match a with
      | ⟨0, _⟩ => by show r.val = 0 + r.val; omega
      | ⟨1, _⟩ => by show k.val = 0 + k.val; omega)

end Cert.KernelIdeal.OutBlock

end
-- ==== Proof.PaddedRow.lean ====
/-
  Rows padded on the right. A row of n + p extended reals whose last p entries are the bottom element has the same
  running maximum as its first n entries, and one whose last p entries are zero has the same sum. These are the two
  facts that make a softmax over a row padded with minus infinity the softmax over the unpadded row, and a contraction
  against a matrix padded with zero rows the contraction against the unpadded matrix.
-/
import Idealize.ShloMosaic.PureOps.Ideal

open scoped BigOperators

namespace Cert.PaddedRow

/-- The fold of `max` from `b` over n + p entries, the last p of them `⊥`, is the fold over the first n. -/
theorem fold_max_pad {n p : ℕ} (b : EReal) (g : Fin (n + p) → EReal) (hpad : ∀ k : Fin p, g (Fin.natAdd n k) = ⊥) :
    (Finset.univ : Finset (Fin (n + p))).fold max b g
      = (Finset.univ : Finset (Fin n)).fold max b (fun k => g (Fin.castAdd p k)) := by
  apply le_antisymm
  · rw [Finset.fold_max_le]
    refine ⟨(Finset.le_fold_max b).2 (Or.inl le_rfl), fun k _ => ?_⟩
    refine Fin.addCases (fun i => ?_) (fun i => ?_) k
    · exact (Finset.le_fold_max _).2 (Or.inr ⟨i, Finset.mem_univ _, le_rfl⟩)
    · rw [hpad]; exact bot_le
  · rw [Finset.fold_max_le]
    exact ⟨(Finset.le_fold_max b).2 (Or.inl le_rfl),
      fun k _ => (Finset.le_fold_max _).2 (Or.inr ⟨Fin.castAdd p k, Finset.mem_univ _, le_rfl⟩)⟩

/-- The sum of n + p entries, the last p of them zero, is the sum of the first n. -/
theorem sum_pad {n p : ℕ} (g : Fin (n + p) → EReal) (hpad : ∀ k : Fin p, g (Fin.natAdd n k) = 0) :
    ∑ k, g k = ∑ k : Fin n, g (Fin.castAdd p k) := by
  rw [Fin.sum_univ_add, Finset.sum_eq_zero (fun k _ => hpad k), add_zero]

/-- The same for N entries of which those from position n on are `⊥`: the fold over the first n. -/
theorem fold_max_tail {n N : ℕ} (hn : n ≤ N) (b : EReal) (g : Fin N → EReal) (hpad : ∀ k : Fin N, n ≤ k.val → g k = ⊥) :
    (Finset.univ : Finset (Fin N)).fold max b g
      = (Finset.univ : Finset (Fin n)).fold max b (fun k => g (Fin.castLE hn k)) := by
  obtain ⟨p, rfl⟩ := Nat.exists_eq_add_of_le hn
  exact fold_max_pad b g (fun k => hpad _ (by rw [Fin.coe_natAdd]; exact Nat.le_add_right _ _))

/-- The same for N entries of which those from position n on are zero: the sum of the first n. -/
theorem sum_tail {n N : ℕ} (hn : n ≤ N) (g : Fin N → EReal) (hpad : ∀ k : Fin N, n ≤ k.val → g k = 0) :
    ∑ k, g k = ∑ k : Fin n, g (Fin.castLE hn k) := by
  obtain ⟨p, rfl⟩ := Nat.exists_eq_add_of_le hn
  exact sum_pad g (fun k => hpad _ (by rw [Fin.coe_natAdd]; exact Nat.le_add_right _ _))

end Cert.PaddedRow
-- ==== Proof.AttentionSpec.lean ====
/-
  The attention layer as one function of its argument arrays, index by index, over the extended reals.

  With x, w : [32, 1024, 1024] (the input and the word embedding), y : [32, 1024, 196] (the image features, one column
  per position), Wi, Wo : [1024, 1024] (the two weight-normalised projections, row = output channel), bi, bo : [1024]
  and the scalars s (the square root of one half), q (the square root of the number of positions) and ninf (the
  maximum's initial value):

    hid  b l e = ((Σ_c x b l c · Wi e c) + bi e + w b l e) · s
    score b l k = Σ_e hid b l e · y b e k                                  (k over the 196 positions)
    rowmax b l = max ninf (the maximum from ninf of score b l k over k)
    num  b l k = exp (score b l k − rowmax b l),   den b l = Σ_k num b l k
    attn b l k = num b l k / den b l
    ctx  b l e = (Σ_k attn b l k · y b e k) · q
    out  b l c = ((Σ_e ctx b l e · Wo c e) + bo c + x b l c) · s

  The two results are `out` and `attn`.
-/
import Idealize.ShloMosaic.PureOps.Ideal
import Idealize.ShloMosaic.Lib.ValueIdx

noncomputable section

open scoped BigOperators
open Idealize.ShloMosaic Idealize.ShloMosaic.ValueIdx

namespace Cert.AttentionSpec

section Curried

variable (x w : Fin 32 → Fin 1024 → Fin 1024 → EReal) (y : Fin 32 → Fin 1024 → Fin 196 → EReal)
  (wi wo : Fin 1024 → Fin 1024 → EReal) (bi bo : Fin 1024 → EReal) (s q ninf : EReal)

/-- The projected, biased and scaled hidden row. -/
def hid (b : Fin 32) (l e : Fin 1024) : EReal :=
  (((∑ c : Fin 1024, x b l c * wi e c) + bi e) + w b l e) * s

/-- The score of position `k` for row `l` of batch `b`. -/
def score (b : Fin 32) (l : Fin 1024) (k : Fin 196) : EReal :=
  ∑ e : Fin 1024, hid x w wi bi s b l e * y b e k

/-- The row's maximum, from the initial value `ninf`. -/
def rowmax (b : Fin 32) (l : Fin 1024) : EReal :=
  max ninf ((Finset.univ : Finset (Fin 196)).fold max ninf (fun k => score x w y wi bi s b l k))

/-- The shifted exponential. -/
def num (b : Fin 32) (l : Fin 1024) (k : Fin 196) : EReal :=
  Ideal.exp (score x w y wi bi s b l k - rowmax x w y wi bi s ninf b l)

/-- The row's normaliser. -/
def den (b : Fin 32) (l : Fin 1024) : EReal :=
  ∑ k : Fin 196, num x w y wi bi s ninf b l k

/-- The attention weights: the softmax of the scores over the positions. -/
def attn (b : Fin 32) (l : Fin 1024) (k : Fin 196) : EReal :=
  Ideal.div (num x w y wi bi s ninf b l k) (den x w y wi bi s ninf b l)

/-- The attended features, scaled. -/
def ctx (b : Fin 32) (l e : Fin 1024) : EReal :=
  (∑ k : Fin 196, attn x w y wi bi s ninf b l k * y b e k) * q

/-- The output row: projected back, biased, with the residual, scaled. -/
def out (b : Fin 32) (l c : Fin 1024) : EReal :=
  (((∑ e : Fin 1024, ctx x w y wi bi s q ninf b l e * wo c e) + bo c) + x b l c) * s

end Curried

/-- The scale `sqrt(1/2)` as the programs spell it. -/
abbrev sHalf : EReal := Ideal.ofBits .f32 0x3F3504F3#32
/-- The scale `sqrt(196) = 14` as the programs spell it. -/
abbrev sPos : EReal := Ideal.ofBits .f32 0x41600000#32
/-- The maximum's initial value as the programs spell it. -/
abbrev negInf : EReal := Ideal.ofBits .f32 0xFF800000#32

abbrev A3 : Shape := ⟨3, ![32, 1024, 1024]⟩
abbrev Y3 : Shape := ⟨3, ![32, 1024, 196]⟩
abbrev W2 : Shape := ⟨2, ![1024, 1024]⟩
abbrev B1 : Shape := ⟨1, ![1024]⟩

variable (X W : A3.Idx → EReal) (Y : Y3.Idx → EReal) (WI WO : W2.Idx → EReal) (BI BO : B1.Idx → EReal)

/-- The attention weights as an array of the argument arrays. -/
def Gattn : Y3.Idx → EReal := fun i =>
  attn (fun b l c => X (ix3 b l c)) (fun b l e => W (ix3 b l e)) (fun b e k => Y (ix3 b e k))
    (fun e c => WI (ix2 e c)) (fun e => BI (ix1 e)) sHalf negInf (i 0) (i 1) (i 2)

/-- The output as an array of the argument arrays. -/
def Gout : A3.Idx → EReal := fun i =>
  out (fun b l c => X (ix3 b l c)) (fun b l e => W (ix3 b l e)) (fun b e k => Y (ix3 b e k))
    (fun e c => WI (ix2 e c)) (fun c e => WO (ix2 c e)) (fun e => BI (ix1 e)) (fun c => BO (ix1 c))
    sHalf sPos negInf (i 0) (i 1) (i 2)

end Cert.AttentionSpec

end
-- ==== Proof.BlockValue.lean ====
/-
  A block of the kernel against the specification.

  Fix a batch `b` and a map `L` from the block's 512 rows to rows of the arrays, and suppose the loaded blocks hold: the x
  rows and word-embedding rows `L r` of batch `b` (P0, P1), the batch's feature matrix in the first 196 columns of P2, its
  transpose in the first 196 rows of P3 and ZERO in P3's last 60 rows, the transposed projections (P4, P6) and the biases
  as rows (P5, P7). Then the body's stored blocks are the specification's `attn` and `out` at (b, L r, ·).

  The padded columns drop out one by one. Their masked score is the bottom element, which the maximum ignores and whose
  shifted exponential is exp ⊥ = 0 (⊥ − M = ⊥ for every extended real M), so the normaliser is the sum over the 196
  positions. In the attended features a padded column's quotient, whatever it is, meets a zero row of P3, and
  a · 0 = 0 for every extended real.
-/
import proofs.«128589_j6442450944088_2_alg».proof.Proof.ScoreBlock
import proofs.«128589_j6442450944088_2_alg».proof.Proof.SoftmaxBlock
import proofs.«128589_j6442450944088_2_alg».proof.Proof.OutBlock
import proofs.«128589_j6442450944088_2_alg».proof.Proof.PaddedRow
import proofs.«128589_j6442450944088_2_alg».proof.Proof.AttentionSpec

noncomputable section

open scoped BigOperators

namespace Cert.KernelIdeal.BlockValue

open Cert.KernelIdeal Cert.KernelIdeal.Gen Idealize.ShloMosaic Idealize.ShloMosaic.ValueIdx Cert.AttentionSpec

variable (x w : Fin 32 → Fin 1024 → Fin 1024 → EReal) (y : Fin 32 → Fin 1024 → Fin 196 → EReal)
  (wi wo : Fin 1024 → Fin 1024 → EReal) (bi bo : Fin 1024 → EReal) (b : Fin 32) (L : Fin 512 → Fin 1024)

variable (P0 : FVec Ideal S1x512x1024 .f32) (P1 : FVec Ideal S1x512x1024 .bf16) (P2 : FVec Ideal S1x1024x256 .f32)
  (P3 : FVec Ideal S1x256x1024 .f32) (P4 : FVec Ideal S1024x1024 .f32) (P5 : FVec Ideal S1x1024 .f32)
  (P6 : FVec Ideal S1024x1024 .bf16) (P7 : FVec Ideal S1x1024 .f32)

/-- What the blocks that feed the scores hold. -/
structure ScoreBlocks : Prop where
  h0 : ∀ (r : Fin 512) (c : Fin 1024), P0 (ix3 (0 : Fin 1) r c) = x b (L r) c
  h1 : ∀ (r : Fin 512) (e : Fin 1024), P1 (ix3 (0 : Fin 1) r e) = w b (L r) e
  h2 : ∀ (e : Fin 1024) (k : Fin 256) (hk : k.val < 196), P2 (ix3 (0 : Fin 1) e k) = y b e ⟨k.val, hk⟩
  h4 : ∀ (c e : Fin 1024), P4 (ix2 c e) = wi e c
  h5 : ∀ (e : Fin 1024), P5 (ix2 (0 : Fin 1) e) = bi e

/-- What the blocks that only feed the output hold. -/
structure OutBlocks : Prop where
  h3 : ∀ (k : Fin 256) (e : Fin 1024) (hk : k.val < 196), P3 (ix3 (0 : Fin 1) k e) = y b e ⟨k.val, hk⟩
  h3z : ∀ (k : Fin 256) (e : Fin 1024), 196 ≤ k.val → P3 (ix3 (0 : Fin 1) k e) = 0
  h6 : ∀ (e c : Fin 1024), P6 (ix2 e c) = wo c e
  h7 : ∀ (c : Fin 1024), P7 (ix2 (0 : Fin 1) c) = bo c

variable {x w y wi wo bi bo b L P0 P1 P2 P3 P4 P5 P6 P7}

/-- The hidden rows. -/
theorem hidden_eq (H : ScoreBlocks x w y wi bi b L P0 P1 P2 P4 P5) (r : Fin 512) (e : Fin 1024) :
    ScoreBlock.hidden P0 P1 P4 P5 (ix2 r e) = hid x w wi bi sHalf b (L r) e := by
  rw [ScoreBlock.hidden_at, H.h5, H.h1]
  unfold hid
  exact congrArg (· * _) (congrArg (· + _) (congrArg (· + _) (Finset.sum_congr rfl fun c _ => by rw [H.h0, H.h4])))

/-- The masked scores: the score below column 196, the bottom element in a padded column. -/
theorem masked_eq (H : ScoreBlocks x w y wi bi b L P0 P1 P2 P4 P5) (r : Fin 512) (k : Fin 256) :
    k0_pay8 (F := Ideal) P0 P1 P2 P4 P5 (ix2 r k)
      = if hk : k.val < 196 then score x w y wi bi sHalf b (L r) ⟨k.val, hk⟩ else ⊥ := by
  rw [ScoreBlock.masked_at]
  by_cases hk : k.val < 196
  · rw [if_pos hk, dif_pos hk]
    unfold score
    exact Finset.sum_congr rfl fun e _ => by rw [hidden_eq H r e, H.h2 e k hk]
  · rw [if_neg hk, dif_neg hk]

theorem masked_real (H : ScoreBlocks x w y wi bi b L P0 P1 P2 P4 P5) (r : Fin 512) (k : Fin 196) :
    k0_pay8 (F := Ideal) P0 P1 P2 P4 P5 (ix2 r (Fin.castLE (by decide : 196 ≤ 256) k)) = score x w y wi bi sHalf b (L r) k := by
  rw [masked_eq H]
  exact dif_pos k.isLt

theorem masked_pad (H : ScoreBlocks x w y wi bi b L P0 P1 P2 P4 P5) (r : Fin 512) (k : Fin 256) (hk : 196 ≤ k.val) :
    k0_pay8 (F := Ideal) P0 P1 P2 P4 P5 (ix2 r k) = ⊥ := by
  rw [masked_eq H]
  exact dif_neg (by omega)

/-- The row maximum the body subtracts. -/
theorem rowmax_eq (H : ScoreBlocks x w y wi bi b L P0 P1 P2 P4 P5) (r : Fin 512) :
    max (k0_pay10 (F := Ideal) (ix1 r)) (k0_pay9 (F := Ideal) P0 P1 P2 P4 P5 (ix1 r)) = rowmax x w y wi bi sHalf negInf b (L r) := by
  have e9 : k0_pay9 (F := Ideal) P0 P1 P2 P4 P5 (ix1 r)
      = (Finset.univ : Finset (Fin 256)).fold max negInf (fun k => k0_pay8 (F := Ideal) P0 P1 P2 P4 P5 (ix2 r k)) :=
    SoftmaxBlock.rowmax_at _ r
  have e10 : k0_pay10 (F := Ideal) (ix1 r) = negInf := rfl
  rw [e9, e10]
  unfold rowmax
  refine congrArg (max negInf) ?_
  refine (Cert.PaddedRow.fold_max_tail (by decide : 196 ≤ 256) negInf _ (fun k hk => masked_pad H r k hk)).trans ?_
  exact congrArg (fun f => (Finset.univ : Finset (Fin 196)).fold max negInf f) (funext fun k => masked_real H r k)

/-- The body's normaliser over the 256 columns is the sum over the 196 positions. -/
theorem den_eq (H : ScoreBlocks x w y wi bi b L P0 P1 P2 P4 P5) (r : Fin 512) :
    (∑ k' : Fin 256, Ideal.exp (k0_pay8 (F := Ideal) P0 P1 P2 P4 P5 (ix2 r k') - rowmax x w y wi bi sHalf negInf b (L r)))
      = den x w y wi bi sHalf negInf b (L r) := by
  refine (Cert.PaddedRow.sum_tail (by decide : 196 ≤ 256) _ (fun k hk => ?_)).trans ?_
  · rw [masked_pad H r k hk, EReal.bot_sub]
    rfl
  · unfold den num
    exact Finset.sum_congr rfl fun k _ => by rw [masked_real H r k]

/-- The softmax quotient at a real position is the specification's attention weight. -/
theorem quotient_eq (H : ScoreBlocks x w y wi bi b L P0 P1 P2 P4 P5) (r : Fin 512) (k : Fin 196) :
    k0_pay1 (F := Ideal) (k0_pay8 (F := Ideal) P0 P1 P2 P4 P5) (k0_pay9 (F := Ideal) P0 P1 P2 P4 P5) (k0_pay10 (F := Ideal))
        (ix2 r (Fin.castLE (by decide : 196 ≤ 256) k))
      = attn x w y wi bi sHalf negInf b (L r) k := by
  rw [SoftmaxBlock.quotient_at, rowmax_eq H r, den_eq H r, masked_real H r k]
  rfl

/-- The stored attention block. -/
theorem stored_eq (H : ScoreBlocks x w y wi bi b L P0 P1 P2 P4 P5) (u : Fin 1) (r : Fin 512) (k : Fin 196) :
    k0_pay3 (F := Ideal) (k0_pay8 (F := Ideal) P0 P1 P2 P4 P5) (k0_pay9 (F := Ideal) P0 P1 P2 P4 P5) (k0_pay10 (F := Ideal)) (ix3 u r k)
      = attn x w y wi bi sHalf negInf b (L r) k := by
  rw [OutBlock.stored_at, quotient_eq H r k]

/-- The attended features: the padded columns meet zero rows. -/
theorem attended_eq (H : ScoreBlocks x w y wi bi b L P0 P1 P2 P4 P5) (K : OutBlocks y wo bo b P3 P6 P7)
    (r : Fin 512) (e : Fin 1024) :
    OutBlock.attended (k0_pay1 (F := Ideal) (k0_pay8 (F := Ideal) P0 P1 P2 P4 P5) (k0_pay9 (F := Ideal) P0 P1 P2 P4 P5) (k0_pay10 (F := Ideal))) (k0_pay5 (F := Ideal) P3) (ix2 r e)
      = ctx x w y wi bi sHalf sPos negInf b (L r) e := by
  rw [OutBlock.attended_at]
  unfold ctx
  refine congrArg (· * _) ?_
  have hv8 : ∀ k : Fin 256, k0_pay5 (F := Ideal) P3 (ix2 k e) = P3 (ix3 (0 : Fin 1) k e) := fun k => by
    unfold k0_pay5
    rw [shapeCast_1ab_ab_apply]
  refine (Cert.PaddedRow.sum_tail (by decide : 196 ≤ 256) _ (fun k hk => ?_)).trans ?_
  · rw [hv8, K.h3z k e hk, mul_zero]
  · exact Finset.sum_congr rfl fun k _ => by
      rw [quotient_eq H r k, hv8, K.h3 (Fin.castLE (by decide : 196 ≤ 256) k) e k.isLt]
      rfl

/-- The stored output block. -/
theorem output_eq (H : ScoreBlocks x w y wi bi b L P0 P1 P2 P4 P5) (K : OutBlocks y wo bo b P3 P6 P7)
    (u : Fin 1) (r : Fin 512) (c : Fin 1024) :
    k0_pay2 (F := Ideal) (k0_pay4 (F := Ideal) P0) (k0_pay5 (F := Ideal) P3) (k0_pay6 (F := Ideal) P6) (k0_pay7 (F := Ideal) P7) (k0_pay8 (F := Ideal) P0 P1 P2 P4 P5) (k0_pay9 (F := Ideal) P0 P1 P2 P4 P5)
        (k0_pay10 (F := Ideal)) (ix3 u r c)
      = out x w y wi wo bi bo sHalf sPos negInf b (L r) c := by
  rw [OutBlock.output_at]
  unfold out
  have e6 : ∀ e : Fin 1024, k0_pay6 (F := Ideal) P6 (ix2 e c) = wo c e := fun e => by
    unfold k0_pay6
    rw [shapeCast_self, K.h6]
  have e7 : k0_pay7 (F := Ideal) P7 (ix2 (0 : Fin 1) c) = bo c := by
    unfold k0_pay7
    rw [shapeCast_self, K.h7]
  have e4 : k0_pay4 (F := Ideal) P0 (ix2 r c) = x b (L r) c := by
    unfold k0_pay4
    rw [shapeCast_1ab_ab_apply, H.h0]
  rw [e7, e4]
  exact congrArg (· * _) (congrArg (· + _) (congrArg (· + _) (Finset.sum_congr rfl fun e _ => by
    rw [attended_eq H K r e, e6])))

end Cert.KernelIdeal.BlockValue

end
-- ==== Proof.HostArrays.lean ====
/-
  The arrays the fused attention region finds, as terms over the argument arrays, and each of them read at an index.

  Before its one region the kernel's program prepares seven arrays from its arguments x (argument 0, untouched),
  w (argument 1), y (argument 2, [32, 1024, 14, 14]), the two weight pairs (v, g) (arguments 3, 4 and 6, 7) and the two
  biases (arguments 5 and 8):

    wnorm v g      = (g_e / sqrt (Σ_c v_{e c}²)) · v_{e c}          the weight-normalised matrix, row e scaled by its gain
    feats y        = y with its two trailing axes merged             [32, 1024, 196], one column per position
    feats y padded with 60 zero columns                              [32, 1024, 256]
    its transpose on the two trailing axes                           [32, 256, 1024]
    the transposes of wnorm v g for both pairs                       entry (c, e) is entry (e, c)
    w, and the second transposed matrix, narrowed to the shorter float format (no change of value here)
    the two biases as one-row matrices                               [1, 1024]

  First each array is identified with the composed term of the operations that wrote it; then each is read at an index
  given by coordinates.
-/
import proofs.«128589_j6442450944088_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost
import Idealize.ShloMosaic.PureOps.Ideal.Laws

noncomputable section

namespace Cert.KernelIdeal.HostArrays

open Cert.KernelIdeal Cert.KernelIdeal.Gen Idealize.ShloMosaic Idealize.ShloMosaic.TcCoe Idealize.SL.Sem
  Idealize.ShloMosaic.ValueIdx

/-- The weight-normalised matrix: row e of v scaled by g_e over the square root of the row's sum of squares. -/
def wnorm (v : FVec Ideal S1024x1024 .f32) (g : FVec Ideal S1024 .f32) : FVec Ideal S1024x1024 .f32 :=
  mulf (broadcastInDim S1024x1024 ![0, 1] bcast_S1024x1_S1024x1024_0_1 (broadcastInDim S1024x1 ![0] bcast_S1024_S1024x1_0
    (Host.divf (F := Ideal) g (Host.sqrt (F := Ideal) (Host.reduceAdd (F := Ideal) (mulf v v) (constant (F := Ideal) S_ .f32 0x00000000#32)
      reducesTo_S1024x1024_S1024_d1 h_S_))))) v

/-- The image features with the two position axes merged into one of 196 columns. -/
def feats (a : FVec Ideal S32x1024x14x14 .f32) : FVec Ideal S32x1024x196 .f32 :=
  shapeCast S32x1024x196 a shapeCasts_S32x1024x14x14_S32x1024x196

variable (m : (ℓ : Loc nD τ sig) → Buf (Elt Ideal) ℓ) (c : Dev nD)

/-! ## The seven arrays as the operations' terms -/

/-- The first projection's matrix as the region finds it: the weight-normalised matrix transposed. -/
theorem V_main_v10 : (V m c main_v10 : S1024x1024.Idx → EReal)
    = transpose S1024x1024 [1, 0] (wnorm (m ((c : Thread nD τ).loc main_arg3)) (m ((c : Thread nD τ).loc main_arg4))) transposes_S1024x1024_S1024x1024_1_0 := by
  dsimp only [Gen.V]
  simp only [Gen.hostOps0, Gen.hostOps0_1, Gen.hostOps0_2, Gen.hostOps0_3, Gen.hostOps0_4, Gen.hostOps0_5, List.flatten_cons,
    List.flatten_nil, List.append_nil, List.cons_append, List.nil_append]
  after_results
  rfl

/-- The second projection's matrix: the weight-normalised matrix transposed, then narrowed. -/
theorem V_main_v12 : (V m c main_v12 : S1024x1024.Idx → EReal)
    = truncf .bf16 (transpose S1024x1024 [1, 0] (wnorm (m ((c : Thread nD τ).loc main_arg6)) (m ((c : Thread nD τ).loc main_arg7))) transposes_S1024x1024_S1024x1024_1_0)
        bitsLt_bf16_f32 := by
  dsimp only [Gen.V]
  simp only [Gen.hostOps0, Gen.hostOps0_1, Gen.hostOps0_2, Gen.hostOps0_3, Gen.hostOps0_4, Gen.hostOps0_5, List.flatten_cons,
    List.flatten_nil, List.append_nil, List.cons_append, List.nil_append]
  after_results
  rfl

/-- The padding value: the integer zero converted. -/
def padValue : FVec Ideal S_ .f32 := sitofp .f32 (constantI S_ 32 0#32)

/-- The features padded on the right of the position axis, 196 columns to 256. -/
theorem V_main_v14 : (V m c main_v14 : S32x1024x256.Idx → EReal)
    = pad S32x1024x256 ![0, 0, 0] ![0, 0, 60] ![0, 0, 0] (feats (m ((c : Thread nD τ).loc main_arg2))) padValue
        pads_S32x1024x196_S32x1024x256_000_000_0600 h_S_ := by
  dsimp only [Gen.V]
  simp only [Gen.hostOps0, Gen.hostOps0_1, Gen.hostOps0_2, Gen.hostOps0_3, Gen.hostOps0_4, Gen.hostOps0_5, List.flatten_cons,
    List.flatten_nil, List.append_nil, List.cons_append, List.nil_append]
  after_results
  rfl

/-- The padded features with the channel and position axes exchanged. -/
theorem V_main_v15 : (V m c main_v15 : S32x256x1024.Idx → EReal)
    = transpose S32x256x1024 [0, 2, 1] (V m c main_v14 : S32x1024x256.Idx → EReal)
        transposes_S32x1024x256_S32x256x1024_0_2_1 := by
  rw [V_main_v14]
  dsimp only [Gen.V]
  simp only [Gen.hostOps0, Gen.hostOps0_1, Gen.hostOps0_2, Gen.hostOps0_3, Gen.hostOps0_4, Gen.hostOps0_5, List.flatten_cons,
    List.flatten_nil, List.append_nil, List.cons_append, List.nil_append]
  after_results
  rfl

/-- The word embedding narrowed. -/
theorem V_main_v16 : (V m c main_v16 : S32x1024x1024.Idx → EReal)
    = (truncf .bf16 ((m ((c : Thread nD τ).loc main_arg1)) : FVec Ideal S32x1024x1024 .f32) bitsLt_bf16_f32 : FVec Ideal S32x1024x1024 .bf16) := by
  dsimp only [Gen.V]
  simp only [Gen.hostOps0, Gen.hostOps0_1, Gen.hostOps0_2, Gen.hostOps0_3, Gen.hostOps0_4, Gen.hostOps0_5, List.flatten_cons,
    List.flatten_nil, List.append_nil, List.cons_append, List.nil_append]
  after_results

/-- The first bias as a one-row matrix. -/
theorem V_main_v17 : (V m c main_v17 : S1x1024.Idx → EReal) = shapeCast S1x1024 (m ((c : Thread nD τ).loc main_arg5)) shapeCasts_S1024_S1x1024 := by
  dsimp only [Gen.V]
  simp only [Gen.hostOps0, Gen.hostOps0_1, Gen.hostOps0_2, Gen.hostOps0_3, Gen.hostOps0_4, Gen.hostOps0_5, List.flatten_cons,
    List.flatten_nil, List.append_nil, List.cons_append, List.nil_append]
  after_results
  rfl

/-- The second bias as a one-row matrix. -/
theorem V_main_v18 : (V m c main_v18 : S1x1024.Idx → EReal) = shapeCast S1x1024 (m ((c : Thread nD τ).loc main_arg8)) shapeCasts_S1024_S1x1024 := by
  dsimp only [Gen.V]
  simp only [Gen.hostOps0, Gen.hostOps0_1, Gen.hostOps0_2, Gen.hostOps0_3, Gen.hostOps0_4, Gen.hostOps0_5, List.flatten_cons,
    List.flatten_nil, List.append_nil, List.cons_append, List.nil_append]
  after_results
  rfl

/-! ## The arrays read at an index -/

/-- The narrowed word embedding reads the word embedding. -/
theorem we_at (b : Fin 32) (l e : Fin 1024) :
    (V m c main_v16 : S32x1024x1024.Idx → EReal) (ix3 b l e)
      = (m ((c : Thread nD τ).loc main_arg1) : S32x1024x1024.Idx → EReal) (ix3 b l e) := by
  rw [V_main_v16]
  rfl

/-- A column of the padded features below 196 is the features' column. -/
theorem cf_at (b : Fin 32) (e : Fin 1024) (k : Fin 256) (hk : k.val < 196) :
    (V m c main_v14 : S32x1024x256.Idx → EReal) (ix3 b e k)
      = feats (m ((c : Thread nD τ).loc main_arg2)) (ix3 b e ⟨k.val, hk⟩) := by
  rw [V_main_v14]
  exact pad_apply_of_inside _ _ _ _ _ pads_S32x1024x196_S32x1024x256_000_000_0600 h_S_ (ix3 b e k) (ix3 b e ⟨k.val, hk⟩)
    (fun a => match a with
      | ⟨0, _⟩ => by show b.val = 0 + b.val * (0 + 1); omega
      | ⟨1, _⟩ => by show e.val = 0 + e.val * (0 + 1); omega
      | ⟨2, _⟩ => by show k.val = 0 + k.val * (0 + 1); omega)

/-- A column of the padded features from 196 on is zero. -/
theorem cf_pad (b : Fin 32) (e : Fin 1024) (k : Fin 256) (hk : 196 ≤ k.val) :
    (V m c main_v14 : S32x1024x256.Idx → EReal) (ix3 b e k) = (0 : EReal) := by
  rw [V_main_v14]
  refine (pad_apply_of_not_inside _ _ _ _ _ pads_S32x1024x196_S32x1024x256_000_000_0600 h_S_ (ix3 b e k) ⟨2, by decide⟩
    (fun h => ?_)).trans ?_
  · have h2 : (k.val - 0) / (0 + 1) < 196 := h.2.2
    omega
  · show ((((0#32 : BitVec 32).toInt : ℤ) : ℝ) : EReal) = 0
    simp

/-- The transposed padded features read the padded features with the two trailing coordinates exchanged. -/
theorem cfT_at (b : Fin 32) (k : Fin 256) (e : Fin 1024) :
    (V m c main_v15 : S32x256x1024.Idx → EReal) (ix3 b k e) = (V m c main_v14 : S32x1024x256.Idx → EReal) (ix3 b e k) := by
  rw [V_main_v15]
  exact transpose_ix3_021_apply _ transposes_S32x1024x256_S32x256x1024_0_2_1 b k e

/-- The first projection's matrix at (c, e) is the weight-normalised matrix at (e, c). -/
theorem wiT_at (cc e : Fin 1024) :
    (V m c main_v10 : S1024x1024.Idx → EReal) (ix2 cc e)
      = wnorm (m ((c : Thread nD τ).loc main_arg3)) (m ((c : Thread nD τ).loc main_arg4)) (ix2 e cc) := by
  rw [V_main_v10]
  exact transpose_ix2_apply _ transposes_S1024x1024_S1024x1024_1_0 cc e

/-- The second projection's matrix at (e, c) is the weight-normalised matrix at (c, e). -/
theorem woT_at (e cc : Fin 1024) :
    (V m c main_v12 : S1024x1024.Idx → EReal) (ix2 e cc)
      = wnorm (m ((c : Thread nD τ).loc main_arg6)) (m ((c : Thread nD τ).loc main_arg7)) (ix2 cc e) := by
  rw [V_main_v12]
  exact (truncf_apply (ψ := .bf16) _ bitsLt_bf16_f32 (ix2 e cc)).trans
    (transpose_ix2_apply _ transposes_S1024x1024_S1024x1024_1_0 e cc)

/-- The first bias's one row reads the bias. -/
theorem inb_at (e : Fin 1024) :
    (V m c main_v17 : S1x1024.Idx → EReal) (ix2 (0 : Fin 1) e)
      = (m ((c : Thread nD τ).loc main_arg5) : S1024.Idx → EReal) (ix1 e) := by
  rw [V_main_v17]
  exact shapeCast_a_1a_apply _ shapeCasts_S1024_S1x1024 0 e

/-- The second bias's one row reads the bias. -/
theorem outb_at (cc : Fin 1024) :
    (V m c main_v18 : S1x1024.Idx → EReal) (ix2 (0 : Fin 1) cc)
      = (m ((c : Thread nD τ).loc main_arg8) : S1024.Idx → EReal) (ix1 cc) := by
  rw [V_main_v18]
  exact shapeCast_a_1a_apply _ shapeCasts_S1024_S1x1024 0 cc

end Cert.KernelIdeal.HostArrays

end
-- ==== Proof.Blocks.lean ====
/-
  From blocks to arrays. Each grid point writes back, to the output array, the block (batch, 512 rows, all channels) of the
  specification's `out`, and to the attention array the block (batch, 512 rows, all 196 positions) of its `attn`, both taken
  at the argument arrays: the point's input blocks hold the rows, the padded features and the weights the block lemmas
  ask for. The 64 blocks of each output tile its array, so after the run each array IS that function.
-/
import proofs.«128589_j6442450944088_2_alg».proof.Proof.Gen.KernelIdeal.Value
import proofs.«128589_j6442450944088_2_alg».proof.Proof.BlockReads
import proofs.«128589_j6442450944088_2_alg».proof.Proof.BlockValue
import proofs.«128589_j6442450944088_2_alg».proof.Proof.HostArrays
import proofs.«128589_j6442450944088_2_alg».proof.Proof.AttentionSpec

noncomputable section

namespace Cert.KernelIdeal.Blocks

open Cert.KernelIdeal Cert.KernelIdeal.Gen Cert.KernelIdeal.Value Idealize.ShloMosaic Idealize.ShloMosaic.TcCoe Idealize.SL.Sem
  Idealize.ShloMosaic.ValueIdx Cert.AttentionSpec Cert.KernelIdeal.BlockReads Cert.KernelIdeal.HostArrays
open Idealize.ShloMosaic.Pipeline (Dat)

variable (m : (ℓ : Loc nD τ sig) → Buf (Elt Ideal) ℓ) (c : Dev nD)

/-! ## The argument arrays as the specification's functions -/

abbrev xF : Fin 32 → Fin 1024 → Fin 1024 → EReal := fun b l cc => (m ((c : Thread nD τ).loc main_arg0) : S32x1024x1024.Idx → EReal) (ix3 b l cc)
abbrev wF : Fin 32 → Fin 1024 → Fin 1024 → EReal := fun b l e => (m ((c : Thread nD τ).loc main_arg1) : S32x1024x1024.Idx → EReal) (ix3 b l e)
abbrev yF : Fin 32 → Fin 1024 → Fin 196 → EReal := fun b e k => feats (m ((c : Thread nD τ).loc main_arg2)) (ix3 b e k)
abbrev wiF : Fin 1024 → Fin 1024 → EReal := fun e cc => wnorm (m ((c : Thread nD τ).loc main_arg3)) (m ((c : Thread nD τ).loc main_arg4)) (ix2 e cc)
abbrev woF : Fin 1024 → Fin 1024 → EReal := fun cc e => wnorm (m ((c : Thread nD τ).loc main_arg6)) (m ((c : Thread nD τ).loc main_arg7)) (ix2 cc e)
abbrev biF : Fin 1024 → EReal := fun e => (m ((c : Thread nD τ).loc main_arg5) : S1024.Idx → EReal) (ix1 e)
abbrev boF : Fin 1024 → EReal := fun cc => (m ((c : Thread nD τ).loc main_arg8) : S1024.Idx → EReal) (ix1 cc)

/-- The output array the kernel computes. -/
def outArr : S32x1024x1024.Idx → EReal :=
  Gout (m ((c : Thread nD τ).loc main_arg0)) (m ((c : Thread nD τ).loc main_arg1)) (feats (m ((c : Thread nD τ).loc main_arg2)))
    (wnorm (m ((c : Thread nD τ).loc main_arg3)) (m ((c : Thread nD τ).loc main_arg4)))
    (wnorm (m ((c : Thread nD τ).loc main_arg6)) (m ((c : Thread nD τ).loc main_arg7)))
    (m ((c : Thread nD τ).loc main_arg5)) (m ((c : Thread nD τ).loc main_arg8))

/-- The attention array the kernel computes. -/
def attnArr : S32x1024x196.Idx → EReal :=
  Gattn (m ((c : Thread nD τ).loc main_arg0)) (m ((c : Thread nD τ).loc main_arg1)) (feats (m ((c : Thread nD τ).loc main_arg2)))
    (wnorm (m ((c : Thread nD τ).loc main_arg3)) (m ((c : Thread nD τ).loc main_arg4)))
    (m ((c : Thread nD τ).loc main_arg5))

theorem outArr_at (b : Fin 32) (l cc : Fin 1024) :
    outArr m c (ix3 b l cc) = out (xF m c) (wF m c) (yF m c) (wiF m c) (woF m c) (biF m c) (boF m c) sHalf sPos negInf b l cc := rfl

theorem attnArr_at (b : Fin 32) (l : Fin 1024) (k : Fin 196) :
    attnArr m c (ix3 b l k) = attn (xF m c) (wF m c) (yF m c) (wiF m c) (biF m c) sHalf negInf b l k := rfl

/-! ## What a point's input blocks hold -/

theorem scoreBlocks (t : Fin cfg0.N) :
    BlockValue.ScoreBlocks (xF m c) (wF m c) (yF m c) (wiF m c) (biF m c) (batchOf t) (rowOf t)
      (iblk m c 0 t) (iblk m c 1 t) (iblk m c 2 t) (iblk m c 4 t) (iblk m c 5 t) where
  h0 := fun r cc => by rw [read0, V_main_arg0]
  h1 := fun r e => by rw [read1, we_at]
  h2 := fun e k hk => by rw [read2, cf_at m c _ e k hk]
  h4 := fun cc e => by rw [read4, wiT_at]
  h5 := fun e => by rw [read5, inb_at]

theorem outBlocks (t : Fin cfg0.N) :
    BlockValue.OutBlocks (yF m c) (woF m c) (boF m c) (batchOf t) (iblk m c 3 t) (iblk m c 6 t) (iblk m c 7 t) where
  h3 := fun k e hk => by rw [read3, cfT_at, cf_at m c _ e k hk]
  h3z := fun k e hk => by rw [read3, cfT_at, cf_pad m c _ e k hk]
  h6 := fun e cc => by rw [read6, woT_at]
  h7 := fun cc => by rw [read7, outb_at]

/-! ## What a point writes back -/

theorem hz3 : (![0, 0, 0] : Fin 3 → Nat) = fun _ => 0 := funext fun a => by fin_cases a <;> rfl
theorem hz2 : (![0, 0] : Fin 2 → Nat) = fun _ => 0 := funext fun a => by fin_cases a <;> rfl

/-- The coordinates of an element of point `t`'s output block. -/
theorem emb8 (t : Fin cfg0.N) (u : Fin 1) (r : Fin 512) (cc : Fin 1024) :
    ((cfg0.win 8).blk t).view.emb (ix3 u r cc) = ix3 (batchOf t) (rowOf t r) cc := by
  funext a; apply Fin.ext
  have hf := idx_facts t
  have hu : u.val = 0 := by omega
  match a with
  | ⟨0, _⟩ => show win0_8.index t (0 : Fin 3) * 1 + 1 * u.val = win0_8.index t (0 : Fin 3); omega
  | ⟨1, _⟩ => show win0_8.index t (1 : Fin 3) * 512 + 1 * r.val = win0_8.index t (1 : Fin 3) * 512 + r.val; omega
  | ⟨2, _⟩ => show win0_8.index t (2 : Fin 3) * 1024 + 1 * cc.val = cc.val; omega

/-- The coordinates of an element of point `t`'s attention block. -/
theorem emb9 (t : Fin cfg0.N) (u : Fin 1) (r : Fin 512) (k : Fin 196) :
    ((cfg0.win 9).blk t).view.emb (ix3 u r k) = ix3 (batchOf t) (rowOf t r) k := by
  funext a; apply Fin.ext
  have hf := idx_facts t
  have hu : u.val = 0 := by omega
  match a with
  | ⟨0, _⟩ => show win0_9.index t (0 : Fin 3) * 1 + 1 * u.val = win0_8.index t (0 : Fin 3); omega
  | ⟨1, _⟩ => show win0_9.index t (1 : Fin 3) * 512 + 1 * r.val = win0_8.index t (1 : Fin 3) * 512 + r.val; omega
  | ⟨2, _⟩ => show win0_9.index t (2 : Fin 3) * 196 + 1 * k.val = k.val; omega

/-- Point `t` writes back block `t` of the output array. -/
theorem flushed8_eq (t : Fin cfg0.N) :
    (dats m 0 c).flushed 8 t = ((cfg0.win 8).blk t).view.read (Elt Ideal) (outArr m c) := by
  rw [Value.flushed8]
  unfold out0_8
  rw [View.canon_unit_zero hz3]
  simp only [View.ld_unit_zero (S := S1x512x1024) hz3, View.ld_unit_zero (S := S1x1024x256) hz3,
    View.ld_unit_zero (S := S1x256x1024) hz3, View.ld_unit_zero (S := S1024x1024) hz2, View.ld_unit_zero (S := S1x1024) hz2]
  funext j
  obtain ⟨u, r, cc, rfl⟩ : ∃ (u : Fin 1) (r : Fin 512) (cc : Fin 1024), j = ix3 u r cc := ⟨j 0, j 1, j 2, eq_ix3 j⟩
  show k0_pay2 (F := Ideal) (k0_pay4 (iblk m c 0 t)) (k0_pay5 (iblk m c 3 t)) (k0_pay6 (iblk m c 6 t)) (k0_pay7 (iblk m c 7 t))
      (k0_pay8 (iblk m c 0 t) (iblk m c 1 t) (iblk m c 2 t) (iblk m c 4 t) (iblk m c 5 t))
      (k0_pay9 (iblk m c 0 t) (iblk m c 1 t) (iblk m c 2 t) (iblk m c 4 t) (iblk m c 5 t)) (k0_pay10 (F := Ideal)) (ix3 u r cc)
    = outArr m c (((cfg0.win 8).blk t).view.emb (ix3 u r cc))
  rw [emb8, outArr_at]
  exact BlockValue.output_eq (scoreBlocks m c t) (outBlocks m c t) u r cc

/-- Point `t` writes back block `t` of the attention array. -/
theorem flushed9_eq (t : Fin cfg0.N) :
    (dats m 0 c).flushed 9 t = ((cfg0.win 9).blk t).view.read (Elt Ideal) (attnArr m c) := by
  rw [Value.flushed9]
  unfold out0_9
  rw [View.canon_unit_zero hz3]
  simp only [View.ld_unit_zero (S := S1x512x1024) hz3, View.ld_unit_zero (S := S1x1024x256) hz3,
    View.ld_unit_zero (S := S1024x1024) hz2, View.ld_unit_zero (S := S1x1024) hz2]
  funext j
  obtain ⟨u, r, k, rfl⟩ : ∃ (u : Fin 1) (r : Fin 512) (k : Fin 196), j = ix3 u r k := ⟨j 0, j 1, j 2, eq_ix3 j⟩
  show k0_pay3 (F := Ideal)
      (k0_pay8 (iblk m c 0 t) (iblk m c 1 t) (iblk m c 2 t) (iblk m c 4 t) (iblk m c 5 t))
      (k0_pay9 (iblk m c 0 t) (iblk m c 1 t) (iblk m c 2 t) (iblk m c 4 t) (iblk m c 5 t)) (k0_pay10 (F := Ideal)) (ix3 u r k)
    = attnArr m c (((cfg0.win 9).blk t).view.emb (ix3 u r k))
  rw [emb9, attnArr_at]
  exact BlockValue.stored_eq (scoreBlocks m c t) u r k

/-! ## The blocks tile the arrays -/

theorem mem_blk8 (t : Fin cfg0.N) (i : S32x1024x1024.Idx) :
    i ∈ ((cfg0.win 8).blk t).view.set ↔ ∀ a : Fin 3, win0_8.index t a * S1x512x1024.size a ≤ (i a).val
      ∧ (i a).val < win0_8.index t a * S1x512x1024.size a + S1x512x1024.size a := by
  show i ∈ ((View.whole main_v19_0).slice (win0_8.rect t)).set ↔ _
  rw [View.set_slice_whole, Rect.mem_set_unit]
  exact Iff.rfl

theorem mem_blk9 (t : Fin cfg0.N) (i : S32x1024x196.Idx) :
    i ∈ ((cfg0.win 9).blk t).view.set ↔ ∀ a : Fin 3, win0_9.index t a * S1x512x196.size a ≤ (i a).val
      ∧ (i a).val < win0_9.index t a * S1x512x196.size a + S1x512x196.size a := by
  show i ∈ ((View.whole main_v19_1).slice (win0_9.rect t)).set ↔ _
  rw [View.set_slice_whole, Rect.mem_set_unit]
  exact Iff.rfl

theorem cover8 (i : S32x1024x1024.Idx) :
    ∃ t : Fin cfg0.N, (cfg0.win 8).flush t = true ∧ i ∈ ((cfg0.win 8).blk t).view.set := by
  have hi0 : (i 0).val < 32 := (i 0).isLt
  have hi1 : (i 1).val < 1024 := (i 1).isLt
  have hi2 : (i 2).val < 1024 := (i 2).isLt
  obtain ⟨t, q0, q1⟩ := idx_onto ⟨(i 0).val, hi0⟩ ⟨(i 1).val / 512, by omega⟩
  have q0' : win0_8.index t (0 : Fin 3) = (i 0).val := q0
  have q1' : win0_8.index t (1 : Fin 3) = (i 1).val / 512 := q1
  have hf := idx_facts t
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 512 ≤ (i 1).val ∧ (i 1).val < win0_8.index t (1 : Fin 3) * 512 + 512; omega
  | ⟨2, _⟩ => show win0_8.index t (2 : Fin 3) * 1024 ≤ (i 2).val ∧ (i 2).val < win0_8.index t (2 : Fin 3) * 1024 + 1024; omega

theorem cover9 (i : S32x1024x196.Idx) :
    ∃ t : Fin cfg0.N, (cfg0.win 9).flush t = true ∧ i ∈ ((cfg0.win 9).blk t).view.set := by
  have hi0 : (i 0).val < 32 := (i 0).isLt
  have hi1 : (i 1).val < 1024 := (i 1).isLt
  have hi2 : (i 2).val < 196 := (i 2).isLt
  obtain ⟨t, q0, q1⟩ := idx_onto ⟨(i 0).val, hi0⟩ ⟨(i 1).val / 512, by omega⟩
  have q0' : win0_8.index t (0 : Fin 3) = (i 0).val := q0
  have q1' : win0_8.index t (1 : Fin 3) = (i 1).val / 512 := q1
  have hf := idx_facts t
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 512 ≤ (i 1).val ∧ (i 1).val < win0_9.index t (1 : Fin 3) * 512 + 512; omega
  | ⟨2, _⟩ => show win0_9.index t (2 : Fin 3) * 196 ≤ (i 2).val ∧ (i 2).val < win0_9.index t (2 : Fin 3) * 196 + 196; omega

/-! ## The arrays after the run -/

theorem final8 : (dats m 0 c).arrAt 8 cfg0.N = outArr m c :=
  (dats m 0 c).arrAt_eq_of_cover 8 (outArr m c) (fun t _ => flushed8_eq m c t) (cover8)

theorem final9 : (dats m 0 c).arrAt 9 cfg0.N = attnArr m c :=
  (dats m 0 c).arrAt_eq_of_cover 9 (attnArr m c) (fun t _ => flushed9_eq m c t) (cover9)

end Cert.KernelIdeal.Blocks

end
-- ==== Proof.ReferenceValue.lean ====
/-
  The reference program computes the attention layer of AttentionSpec, index by index.

  Each stage of the reference is read at an index given by its coordinates (b, l, e) or (b, l, k) and identified with
  the matching function of the specification:

    the hidden row        ((Σ_c x b l c · Wi e c) + bi e + w b l e) · s
    the scores            Σ_e hid b l e · y b e k
    the row maximum       max ninf (the maximum from ninf of the scores over the 196 positions)
    the shifted exponential and its row sum (the sum starts from zero, which adds nothing)
    the attention weights, the quotient of the two
    the attended features (Σ_k attn b l k · y b e k) · q
    the output row        ((Σ_e ctx b l e · Wo c e) + bo c + x b l c) · s

  The two weight-normalised projections and the reshaped features enter only as arrays: nothing here depends on how
  they are computed from the arguments. A contraction reads its left operand at the output's coordinates with the
  contracted one replaced, and its right operand at the remaining output coordinate and the contracted one; a
  broadcast of a row statistic reads it at (b, l); a broadcast of a bias reads it at the last coordinate.
-/
import proofs.«128589_j6442450944088_2_alg».proof.Proof.Gen.ReferenceIdeal.Read
import proofs.«128589_j6442450944088_2_alg».proof.Proof.AttentionSpec
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx
open Cert.AttentionSpec

variable (x0 x1 : (⟨S32x1024x1024, .f32⟩ : BufTy).Contents (Elt Ideal))
  (x2 : (⟨S32x1024x14x14, .f32⟩ : BufTy).Contents (Elt Ideal))
  (x3 : (⟨S1024x1024, .f32⟩ : BufTy).Contents (Elt Ideal)) (x4 x5 : (⟨S1024, .f32⟩ : BufTy).Contents (Elt Ideal))
  (x6 : (⟨S1024x1024, .f32⟩ : BufTy).Contents (Elt Ideal)) (x7 x8 : (⟨S1024, .f32⟩ : BufTy).Contents (Elt Ideal))

/-! ## The arrays by coordinates -/

/-- A rank-3 array of 32 × 1024 × 1024 entries by its coordinates. -/
abbrev c3 (a : (⟨S32x1024x1024, .f32⟩ : BufTy).Contents (Elt Ideal)) : Fin 32 → Fin 1024 → Fin 1024 → EReal :=
  fun b l c => a (ix3 b l c)
/-- The features, 32 × 1024 × 196, by their coordinates. -/
abbrev cy (a : (⟨S32x1024x196, .f32⟩ : BufTy).Contents (Elt Ideal)) : Fin 32 → Fin 1024 → Fin 196 → EReal :=
  fun b e k => a (ix3 b e k)
/-- A 1024 × 1024 matrix by its coordinates. -/
abbrev c2 (a : (⟨S1024x1024, .f32⟩ : BufTy).Contents (Elt Ideal)) : Fin 1024 → Fin 1024 → EReal :=
  fun e c => a (ix2 e c)
/-- A vector of 1024 entries by its coordinate. -/
abbrev c1 (a : (⟨S1024, .f32⟩ : BufTy).Contents (Elt Ideal)) : Fin 1024 → EReal :=
  fun e => a (ix1 e)

/-! ## Where each stage reads its operands -/

/-- A contraction of the last axis against a matrix's columns reads the left operand along the row (b, l) … -/
theorem lidx5 (b : Fin 32) (l e k : Fin 1024) : lidx_main_v5 (ix3 b l e) k = ix3 b l k :=
  funext fun a => Fin.ext (by match a with | ⟨0, _⟩ => rfl | ⟨1, _⟩ => rfl | ⟨2, _⟩ => rfl)
/-- … and the matrix along its row e. -/
theorem ridx5 (b : Fin 32) (l e k : Fin 1024) : ridx_main_v5 (ix3 b l e) k = ix2 e k :=
  funext fun a => Fin.ext (by match a with | ⟨0, _⟩ => rfl | ⟨1, _⟩ => rfl)
/-- The bias, broadcast over the rows, is read at the last coordinate. -/
theorem idx67 (b : Fin 32) (l e : Fin 1024) : idx_main_v6 (idx_main_v7 (ix3 b l e)) = ix1 e :=
  funext fun a => Fin.ext (by match a with | ⟨0, _⟩ => rfl)
/-- The scores contract the hidden row (b, l) … -/
theorem lidx13 (b : Fin 32) (l : Fin 1024) (k : Fin 196) (e : Fin 1024) : lidx_main_v13 (ix3 b l k) e = ix3 b l e :=
  funext fun a => Fin.ext (by match a with | ⟨0, _⟩ => rfl | ⟨1, _⟩ => rfl | ⟨2, _⟩ => rfl)
/-- … against column k of batch b's features. -/
theorem ridx13 (b : Fin 32) (l : Fin 1024) (k : Fin 196) (e : Fin 1024) : ridx_main_v13 (ix3 b l k) e = ix3 b e k :=
  funext fun a => Fin.ext (by match a with | ⟨0, _⟩ => rfl | ⟨1, _⟩ => rfl | ⟨2, _⟩ => rfl)

/-! ## The hidden row and the scores -/

/-- The hidden row: the input projected by the in-projection, plus its bias and the word embedding, scaled. -/
theorem hid_eq (b : Fin 32) (l e : Fin 1024) :
    val_main_v11 (F := Ideal) x0 x1 x3 x4 x5 (ix3 b l e)
      = hid (c3 x0) (c3 x1) (c2 (val_main_v4 (F := Ideal) x3 x4)) (c1 x5) sHalf b l e := by
  rw [val_main_v11_apply, val_main_v9_apply, val_main_v8_apply, val_main_v5_apply, val_main_v7_apply, val_main_v6_apply,
    val_main_v10_apply, val_main_cst_apply]
  simp only [Ideal.mulf_def, Ideal.addf_def, Ideal.ofBits_def, lidx5, ridx5, idx67]
  rfl

/-- The scores: the hidden row against each position's feature column. -/
theorem score_eq (b : Fin 32) (l : Fin 1024) (k : Fin 196) :
    val_main_v13 (F := Ideal) x0 x1 x2 x3 x4 x5 (ix3 b l k)
      = score (c3 x0) (c3 x1) (cy (val_main_v12 (F := Ideal) x2)) (c2 (val_main_v4 (F := Ideal) x3 x4)) (c1 x5) sHalf b l k := by
  rw [val_main_v13_apply]
  simp only [lidx13, ridx13, hid_eq]
  rfl

/-! ## The row maximum -/

/-- The rows' statistics, broadcast over the positions, are read at (b, l). -/
theorem idx1718 (b : Fin 32) (l : Fin 1024) (k : Fin 196) : idx_main_v17 (idx_main_v18 (ix3 b l k)) = ix2 b l :=
  funext fun a => Fin.ext (by match a with | ⟨0, _⟩ => rfl | ⟨1, _⟩ => rfl)
/-- Likewise for the normaliser. -/
theorem idx2223 (b : Fin 32) (l : Fin 1024) (k : Fin 196) : idx_main_v22 (idx_main_v23 (ix3 b l k)) = ix2 b l :=
  funext fun a => Fin.ext (by match a with | ⟨0, _⟩ => rfl | ⟨1, _⟩ => rfl)
/-- The row sum runs over the positions of row (b, l). -/
theorem idx21 (b : Fin 32) (l : Fin 1024) (k : Fin 196) : idx_main_v21 (ix2 b l) k = ix3 b l k :=
  funext fun a => Fin.ext (by match a with | ⟨0, _⟩ => rfl | ⟨1, _⟩ => rfl | ⟨2, _⟩ => rfl)

/-- The maximum over the last axis, read at (b, l): maximum is commutative and associative on the extended reals, so
    the reduction is the fold of max, from the initial value, over the row's 196 positions in any order. -/
theorem rowfold_eq (b : Fin 32) (l : Fin 1024) :
    val_main_v14 (F := Ideal) x0 x1 x2 x3 x4 x5 (ix2 b l)
      = (Finset.univ : Finset (Fin 196)).fold max negInf
          (fun k => val_main_v13 (F := Ideal) x0 x1 x2 x3 x4 x5 (ix3 b l k)) := by
  unfold val_main_v14
  generalize val_main_v13 (F := Ideal) x0 x1 x2 x3 x4 x5 = y0
  rw [Host.reduce_eq_fold_single (FloatOps.maximumf (F := Ideal) (φ := .f32)) y0 _ reducesTo_S32x1024x196_S32x1024_d2
    (by decide) h_S_ (ix2 b l)]
  refine Finset.fold_congr fun k _ => ?_
  exact congrArg y0 (funext fun a => Fin.ext (by match a with | ⟨0, _⟩ => rfl | ⟨1, _⟩ => rfl | ⟨2, _⟩ => rfl))

/-- The row maximum, taken once more against the initial value. -/
theorem rowmax_eq (b : Fin 32) (l : Fin 1024) :
    val_main_v16 (F := Ideal) x0 x1 x2 x3 x4 x5 (ix2 b l)
      = rowmax (c3 x0) (c3 x1) (cy (val_main_v12 (F := Ideal) x2)) (c2 (val_main_v4 (F := Ideal) x3 x4)) (c1 x5) sHalf negInf b l := by
  rw [val_main_v16_apply, val_main_v15_apply, val_main_cst_1_apply, rowfold_eq]
  simp only [Ideal.maximumf_def, Ideal.ofBits_def, score_eq]
  rfl

/-! ## The softmax -/

/-- The shifted exponential. -/
theorem num_eq (b : Fin 32) (l : Fin 1024) (k : Fin 196) :
    val_main_v20 (F := Ideal) x0 x1 x2 x3 x4 x5 (ix3 b l k)
      = num (c3 x0) (c3 x1) (cy (val_main_v12 (F := Ideal) x2)) (c2 (val_main_v4 (F := Ideal) x3 x4)) (c1 x5) sHalf negInf b l k := by
  rw [val_main_v20_apply, val_main_v19_apply, val_main_v18_apply, val_main_v17_apply, idx1718, rowmax_eq, score_eq]
  simp only [Ideal.hostUnary_exp_def, Ideal.subf_def]
  rfl

/-- The normaliser: the row sum of the shifted exponentials; it starts from zero, which adds nothing. -/
theorem den_eq (b : Fin 32) (l : Fin 1024) :
    val_main_v21 (F := Ideal) x0 x1 x2 x3 x4 x5 (ix2 b l)
      = den (c3 x0) (c3 x1) (cy (val_main_v12 (F := Ideal) x2)) (c2 (val_main_v4 (F := Ideal) x3 x4)) (c1 x5) sHalf negInf b l := by
  rw [val_main_v21_apply, val_main_cst_2_apply]
  simp only [Ideal.ofBits_def, Ideal.ofBits_zero_f32, zero_add, idx21, num_eq]
  rfl

/-- The attention weights at (b, l, k). -/
theorem attn_at (b : Fin 32) (l : Fin 1024) (k : Fin 196) :
    val_main_v24 (F := Ideal) x0 x1 x2 x3 x4 x5 (ix3 b l k)
      = attn (c3 x0) (c3 x1) (cy (val_main_v12 (F := Ideal) x2)) (c2 (val_main_v4 (F := Ideal) x3 x4)) (c1 x5) sHalf negInf b l k := by
  rw [val_main_v24_apply, val_main_v23_apply, val_main_v22_apply, idx2223, den_eq, num_eq]
  simp only [Ideal.hostDivf_def]
  rfl

/-- The reference's attention weights are the specification's. -/
theorem attn_eq :
    val_main_v24 (F := Ideal) x0 x1 x2 x3 x4 x5
      = Gattn x0 x1 (val_main_v12 (F := Ideal) x2) (val_main_v4 (F := Ideal) x3 x4) x5 := by
  funext i
  obtain ⟨b, l, k, rfl⟩ : ∃ (b : Fin 32) (l : Fin 1024) (k : Fin 196), i = ix3 b l k := ⟨i 0, i 1, i 2, eq_ix3 i⟩
  exact attn_at x0 x1 x2 x3 x4 x5 b l k

/-! ## The attended features and the output -/

/-- The attended features contract the weights of row (b, l) … -/
theorem lidx25 (b : Fin 32) (l e : Fin 1024) (k : Fin 196) : lidx_main_v25 (ix3 b l e) k = ix3 b l k :=
  funext fun a => Fin.ext (by match a with | ⟨0, _⟩ => rfl | ⟨1, _⟩ => rfl | ⟨2, _⟩ => rfl)
/-- … against row e of batch b's features. -/
theorem ridx25 (b : Fin 32) (l e : Fin 1024) (k : Fin 196) : ridx_main_v25 (ix3 b l e) k = ix3 b e k :=
  funext fun a => Fin.ext (by match a with | ⟨0, _⟩ => rfl | ⟨1, _⟩ => rfl | ⟨2, _⟩ => rfl)
/-- The out-projection contracts the attended row (b, l) … -/
theorem lidx33 (b : Fin 32) (l c e : Fin 1024) : lidx_main_v33 (ix3 b l c) e = ix3 b l e :=
  funext fun a => Fin.ext (by match a with | ⟨0, _⟩ => rfl | ⟨1, _⟩ => rfl | ⟨2, _⟩ => rfl)
/-- … against row c of the out-projection. -/
theorem ridx33 (b : Fin 32) (l c e : Fin 1024) : ridx_main_v33 (ix3 b l c) e = ix2 c e :=
  funext fun a => Fin.ext (by match a with | ⟨0, _⟩ => rfl | ⟨1, _⟩ => rfl)
/-- The output bias is read at the last coordinate. -/
theorem idx3435 (b : Fin 32) (l c : Fin 1024) : idx_main_v34 (idx_main_v35 (ix3 b l c)) = ix1 c :=
  funext fun a => Fin.ext (by match a with | ⟨0, _⟩ => rfl)

/-- The attended features, scaled by the square root of the number of positions. -/
theorem ctx_eq (b : Fin 32) (l e : Fin 1024) :
    val_main_v27 (F := Ideal) x0 x1 x2 x3 x4 x5 (ix3 b l e)
      = ctx (c3 x0) (c3 x1) (cy (val_main_v12 (F := Ideal) x2)) (c2 (val_main_v4 (F := Ideal) x3 x4)) (c1 x5) sHalf sPos negInf b l e := by
  rw [val_main_v27_apply, val_main_v25_apply, val_main_v26_apply, val_main_cst_3_apply]
  simp only [Ideal.mulf_def, Ideal.ofBits_def, lidx25, ridx25, attn_at]
  rfl

/-- The output row at (b, l, c). -/
theorem out_at (b : Fin 32) (l c : Fin 1024) :
    val_main_v39 (F := Ideal) x0 x1 x2 x3 x4 x5 x6 x7 x8 (ix3 b l c)
      = out (c3 x0) (c3 x1) (cy (val_main_v12 (F := Ideal) x2)) (c2 (val_main_v4 (F := Ideal) x3 x4))
          (c2 (val_main_v32 (F := Ideal) x6 x7)) (c1 x5) (c1 x8) sHalf sPos negInf b l c := by
  rw [val_main_v39_apply, val_main_v37_apply, val_main_v36_apply, val_main_v33_apply, val_main_v35_apply, val_main_v34_apply,
    val_main_v38_apply, val_main_cst_4_apply]
  simp only [Ideal.mulf_def, Ideal.addf_def, Ideal.ofBits_def, lidx33, ridx33, idx3435, ctx_eq]
  rfl

/-- The reference's output is the specification's. -/
theorem out_eq :
    val_main_v39 (F := Ideal) x0 x1 x2 x3 x4 x5 x6 x7 x8
      = Gout x0 x1 (val_main_v12 (F := Ideal) x2) (val_main_v4 (F := Ideal) x3 x4) (val_main_v32 (F := Ideal) x6 x7) x5 x8 := by
  funext i
  obtain ⟨b, l, c, rfl⟩ : ∃ (b : Fin 32) (l c : Fin 1024), i = ix3 b l c := ⟨i 0, i 1, i 2, eq_ix3 i⟩
  exact out_at x0 x1 x2 x3 x4 x5 x6 x7 x8 b l c

end Cert.ReferenceIdeal.RefValue

end
-- ==== Proof.lean ====
/-
  The certificate of a fused attention layer against its reference.

  Both programs compute, from x and the word embedding w ([32, 1024, 1024]), the image features y ([32, 1024, 14, 14], read
  as 196 positions), two weight-normalised projections and two biases,

    hid = ((x · Wiᵀ) + bi + w) · s,   score = hid · y,   attn = softmax over the 196 positions of score,
    ctx = (attn · yᵀ) · 14,           out = ((ctx · Woᵀ) + bo + x) · s,

  and return `out` and `attn` (Proof/AttentionSpec.lean states this as one function of the argument arrays, index by index).

  The reference computes it literally. The kernel works on blocks of 512 rows of one batch, with the features padded from
  196 to 256 columns by zeros; it masks the 60 padded score columns with a fill that the certificate's table of named
  constants reads as minus infinity, takes the softmax over all 256 columns, contracts the 256 weights with the padded
  features, and stores the first 196 weights. On the extended reals the padded columns drop out (Proof/PaddedRow.lean,
  Proof/BlockValue.lean): the bottom element is neutral for the maximum, its shifted exponential is zero, and the padded
  weights meet zero rows. So each block the kernel writes is a block of the same function (Proof/Blocks.lean), the
  blocks tile the two result arrays, and the two programs end with equal results. No step uses that the inputs are finite:
  only commutative-monoid facts of sums, and the laws of ⊥ and 0, are used.

  The three frames are the generated ones (the reference's is its generated run with the results dropped). The one entry
  of the idealization's ledger is the named fill, whose statement is the rule's own.
-/
import proofs.«128589_j6442450944088_2_alg».proof.Defs
import proofs.«128589_j6442450944088_2_alg».proof.Proof.Gen.Kernel
import proofs.«128589_j6442450944088_2_alg».proof.Proof.Gen.Kernel.Skeleton
import proofs.«128589_j6442450944088_2_alg».proof.Proof.Gen.Kernel.Launch
import proofs.«128589_j6442450944088_2_alg».proof.Proof.Gen.Kernel.Points
import proofs.«128589_j6442450944088_2_alg».proof.Proof.Gen.Kernel.Frame
import proofs.«128589_j6442450944088_2_alg».proof.Proof.Gen.KernelIdeal
import proofs.«128589_j6442450944088_2_alg».proof.Proof.Gen.KernelIdeal.Skeleton
import proofs.«128589_j6442450944088_2_alg».proof.Proof.Gen.KernelIdeal.Launch
import proofs.«128589_j6442450944088_2_alg».proof.Proof.Gen.KernelIdeal.Points
import proofs.«128589_j6442450944088_2_alg».proof.Proof.Gen.KernelIdeal.Frame
import proofs.«128589_j6442450944088_2_alg».proof.Proof.Gen.KernelIdeal.Value
import proofs.«128589_j6442450944088_2_alg».proof.Proof.Gen.ReferenceIdeal
import proofs.«128589_j6442450944088_2_alg».proof.Proof.Gen.ReferenceIdeal.Run
import proofs.«128589_j6442450944088_2_alg».proof.Proof.Gen.ReferenceIdeal.Read
import proofs.«128589_j6442450944088_2_alg».proof.Proof.Gen.Pre_finite_inputs
import proofs.«128589_j6442450944088_2_alg».proof.Proof.Blocks
import proofs.«128589_j6442450944088_2_alg».proof.Proof.ReferenceValue
import Idealize.ShloMosaic.Adequacy
import Idealize.ShloMosaic.Init

noncomputable section

namespace Cert.Proof

open Idealize.ShloMosaic Idealize.ShloMosaic.TcCoe Idealize.SL.Sem

/-! ## The shared pieces are one term in both programs -/

/-- The reference's weight-normalised in-projection is the kernel's. -/
theorem wi_eq (v : FVec Ideal Cert.KernelIdeal.S1024x1024 .f32) (g : FVec Ideal Cert.KernelIdeal.S1024 .f32) :
    Cert.ReferenceIdeal.Read.val_main_v4 (F := Ideal) v g = Cert.KernelIdeal.HostArrays.wnorm v g := rfl

/-- The reference's weight-normalised out-projection is the kernel's. -/
theorem wo_eq (v : FVec Ideal Cert.KernelIdeal.S1024x1024 .f32) (g : FVec Ideal Cert.KernelIdeal.S1024 .f32) :
    Cert.ReferenceIdeal.Read.val_main_v32 (F := Ideal) v g = Cert.KernelIdeal.HostArrays.wnorm v g := rfl

/-- The reference's reshaped features are the kernel's. -/
theorem feats_eq (a : FVec Ideal Cert.KernelIdeal.S32x1024x14x14 .f32) :
    Cert.ReferenceIdeal.Read.val_main_v12 (F := Ideal) a = Cert.KernelIdeal.HostArrays.feats a := rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The ledger's one entry: the table gives the fill the bottom element, and the printed constant is that at the ideal
    values. -/
theorem preserves : Cert.preserves_Kernel_KernelIdeal :=
  IdealRules.named_const.statement Cert.KernelIdeal.κ "neg_big" .f32 0xF149F2CA#32 ⊥ rfl

/-- Both programs end with `out` and `attn` of the argument arrays. -/
theorem algebraic : Cert.algebraic_KernelIdeal_ReferenceIdeal := by
  intro m ρ m' ρ' _ hagree
  refine ⟨fun c => Cert.KernelIdeal.Blocks.outArr m c, fun c => Cert.KernelIdeal.Blocks.attnArr m c, ?_, ?_⟩
  · exact (θ_run Cert.KernelIdeal.defs _ _).mono
      (fun r h c => ⟨(h c).1.trans (Cert.KernelIdeal.Blocks.final8 m c),
        (h c).2.1.trans (Cert.KernelIdeal.Blocks.final9 m c), (h c).2.2⟩)
      (Cert.KernelIdeal.Value.run_blocks (F := Ideal) m ρ)
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v39_eq, Cert.ReferenceIdeal.RefValue.out_eq,
        (hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2, wi_eq, wo_eq, feats_eq]
      rfl
    · rw [(h c).2.1, Cert.ReferenceIdeal.Read.val_main_v24_eq, Cert.ReferenceIdeal.RefValue.attn_eq,
        (hagree c).1, (hagree c).2.1, (hagree c).2.2.1, (hagree c).2.2.2.1, (hagree c).2.2.2.2.1, (hagree c).2.2.2.2.2.1,
        wi_eq, feats_eq]
      rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
